-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x32 : Shape := ⟨2, ![50000, 32]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S64 .f32) (main_arg13 : FVec F S64x128 .f32) (main_arg14 : FVec F S128 .f32) (main_arg15 : FVec F S128x128 .f32) (main_arg16 : FVec F S128 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S32 .f32) (main_arg9 : FVec F S64x32 .f32) (main_arg10 : FVec F S32 .f32) (main_arg11 : FVec F S32x64 .f32) (main_arg12 : FVec F S64 .f32) (main_arg13 : FVec F S64x128 .f32) (main_arg14 : FVec F S128 .f32) (main_arg15 : FVec F S128x128 .f32) (main_arg16 : FVec F S128 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg11
  let main_cst_18 : FVec F S_ .f32 := constant S_ .f32 0x7F800000#32
  let main_v50 : FVec F S32x64 .f32 := broadcastInDim S32x64 ![] bcast_S_S32x64 main_cst_18
  fn_part3 (F := F) main_arg12 main_arg13 main_arg14 main_arg15 main_arg16 main_v48 main_v49 main_v50

def fn_part1 {F : FTy → Type} [FloatOps F] (main_arg5 : FVec F S128x64 .f32) (main_arg6 : FVec F S64 .f32) (main_arg7 : FVec F S64x32 .f32) (main_arg8 : FVec F S32 .f32) (main_arg9 : FVec F S64x32 .f32) (main_arg10 : FVec F S32 .f32) (main_arg11 : FVec F S32x64 .f32) (main_arg12 : FVec F S64 .f32) (main_arg13 : FVec F S64x128 .f32) (main_arg14 : FVec F S128 .f32) (main_arg15 : FVec F S128x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S50000x32 .f32) (main_arg3 : FVec F S128x128 .f32) (main_arg4 : FVec F S128 .f32) (main_arg5 : FVec F S128x64 .f32) (main_arg6 : FVec F S64 .f32) (main_arg7 : FVec F S64x32 .f32) (main_arg8 : FVec F S32 .f32) (main_arg9 : FVec F S64x32 .f32) (main_arg10 : FVec F S32 .f32) (main_arg11 : FVec F S32x64 .f32) (main_arg12 : FVec F S64 .f32) (main_arg13 : FVec F S64x128 .f32) (main_arg14 : FVec F S128 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32 .f32 := Host.absf main_arg2
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000x32 : Shape := ⟨2, ![50000, 32]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S10000x32 : Shape := ⟨2, ![10000, 32]⟩
abbrev S850000x32 : Shape := ⟨2, ![850000, 32]⟩
abbrev S1x32 : Shape := ⟨2, ![1, 32]⟩

abbrev nBuf : Space → Nat
  | .hbm => 205
  | .vmem => 35
  | .smem => 0
  | _ => 0

abbrev hbmTy0_0 (i : Nat) : BufTy := match i % 128 with
  | 0 => ⟨S50000x128, .f32⟩
  | 1 => ⟨S2x800000, .i32⟩
  | 2 => ⟨S50000x32, .f32⟩
  | 3 => ⟨S128x128, .f32⟩
  | 4 => ⟨S128, .f32⟩
  | 5 => ⟨S128x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S32x64, .f32⟩
  | 12 => ⟨S64, .f32⟩
  | 13 => ⟨S64x128, .f32⟩
  | 14 => ⟨S128, .f32⟩
  | 15 => ⟨S128x128, .f32⟩
  | 16 => ⟨S128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x64, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x64, .f32⟩
  | 83 => ⟨S850000x1, .f32⟩
  | 84 => ⟨S850000x64, .f32⟩
  | 85 => ⟨S850000x64, .f32⟩
  | 86 => ⟨S_, .f32⟩
  | 87 => ⟨S50000x64, .f32⟩
  | 88 => ⟨S850000x1, .i32⟩
  | 89 => ⟨S50000x64, .f32⟩
  | 90 => ⟨S1x64, .f32⟩
  | 91 => ⟨S50000x64, .f32⟩
  | 92 => ⟨S50000x64, .f32⟩
  | 93 => ⟨S50000x32, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x32, .f32⟩
  | 103 => ⟨S850000x1, .f32⟩
  | 104 => ⟨S850000x32, .f32⟩
  | 105 => ⟨S850000x32, .f32⟩
  | 106 => ⟨S_, .f32⟩
  | 107 => ⟨S50000x32, .f32⟩
  | 108 => ⟨S850000x1, .i32⟩
  | 109 => ⟨S50000x32, .f32⟩
  | 110 => ⟨S1x32, .f32⟩
  | 111 => ⟨S50000x32, .f32⟩
  | 112 => ⟨S50000x32, .f32⟩
  | 113 => ⟨S50000x32, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x32, .f32⟩
  | 123 => ⟨S850000x1, .f32⟩
  | 124 => ⟨S850000x32, .f32⟩
  | 125 => ⟨S850000x32, .f32⟩
  | 126 => ⟨S_, .f32⟩
  | 127 => ⟨S50000x32, .f32⟩
  | _ => ⟨S50000x128, .f32⟩

abbrev hbmTy0_1 (i : Nat) : BufTy := match i % 128 with
  | 0 => ⟨S850000x1, .i32⟩
  | 1 => ⟨S50000x32, .f32⟩
  | 2 => ⟨S1x32, .f32⟩
  | 3 => ⟨S50000x32, .f32⟩
  | 4 => ⟨S50000x32, .f32⟩
  | 5 => ⟨S_, .f32⟩
  | 6 => ⟨S50000x32, .f32⟩
  | 7 => ⟨S50000x32, .f32⟩
  | 8 => ⟨S50000x32, .f32⟩
  | 9 => ⟨S50000x32, .f32⟩
  | 10 => ⟨S50000x32, .f32⟩
  | 11 => ⟨S50000x64, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x64, .f32⟩
  | 21 => ⟨S850000x1, .f32⟩
  | 22 => ⟨S850000x64, .f32⟩
  | 23 => ⟨S850000x64, .f32⟩
  | 24 => ⟨S_, .f32⟩
  | 25 => ⟨S50000x64, .f32⟩
  | 26 => ⟨S850000x1, .i32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x128, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x128, .f32⟩
  | 44 => ⟨S850000x1, .f32⟩
  | 45 => ⟨S850000x128, .f32⟩
  | 46 => ⟨S850000x128, .f32⟩
  | 47 => ⟨S_, .f32⟩
  | 48 => ⟨S50000x128, .f32⟩
  | 49 => ⟨S850000x1, .i32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x64, .f32⟩
  | .local _ .vmem, ⟨16, _⟩ => ⟨S10000x64, .f32⟩
  | .local _ .vmem, ⟨17, _⟩ => ⟨S64x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_12 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_c_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_16 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_17 : Ref sig .tc := ⟨.hbm, 140, rfl⟩
abbrev main_v102 : Ref sig .tc := ⟨.hbm, 141, rfl⟩
abbrev main_v103 : Ref sig .tc := ⟨.hbm, 142, rfl⟩
abbrev main_c_18 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_19 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call1_cst : Ref sig .tc := ⟨.hbm, 159, rfl⟩
abbrev main_call1_v0 : Ref sig .tc := ⟨.hbm, 160, rfl⟩
abbrev main_v118 : Ref sig .tc := ⟨.hbm, 161, rfl⟩
abbrev main_v119 : Ref sig .tc := ⟨.hbm, 162, rfl⟩
abbrev main_c_20 : Ref sig .tc := ⟨.hbm, 163, rfl⟩
abbrev main_v120 : Ref sig .tc := ⟨.hbm, 164, rfl⟩
abbrev main_v121 : Ref sig .tc := ⟨.hbm, 165, rfl⟩
abbrev main_c_21 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_22 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_call2_cst : Ref sig .tc := ⟨.hbm, 182, rfl⟩
abbrev main_call2_v0 : Ref sig .tc := ⟨.hbm, 183, rfl⟩
abbrev main_v136 : Ref sig .tc := ⟨.hbm, 184, rfl⟩
abbrev main_v137 : Ref sig .tc := ⟨.hbm, 185, rfl⟩
abbrev main_c_23 : Ref sig .tc := ⟨.hbm, 186, rfl⟩
abbrev main_v138 : Ref sig .tc := ⟨.hbm, 187, rfl⟩
abbrev main_v139 : Ref sig .tc := ⟨.hbm, 188, rfl⟩
abbrev main_c_24 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_25 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x32_S10000x32_1_0_0_1_n_n_wf : DotDims.WF S10000x64 S64x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S50000x32.size a
  hwx2_2 : ∀ i : grid2.Coords, EltTy.bits .f32 = 32 ∨ (Rect.block (s := S50000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S50000x32.size a
  hwx3_2 : ∀ i : grid3.Coords, EltTy.bits .f32 = 32 ∨ (Rect.block (s := S50000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v100) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v118) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v136) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v137) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x32 : Shape := ⟨2, ![50000, 32]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S850000x32 : Shape := ⟨2, ![850000, 32]⟩
abbrev S1x32 : Shape := ⟨2, ![1, 32]⟩

abbrev nBuf : Space → Nat
  | .hbm => 205
  | .vmem => 0
  | .smem => 0
  | _ => 0

abbrev hbmTy0_0 (i : Nat) : BufTy := match i % 128 with
  | 0 => ⟨S50000x128, .f32⟩
  | 1 => ⟨S2x800000, .i32⟩
  | 2 => ⟨S50000x32, .f32⟩
  | 3 => ⟨S128x128, .f32⟩
  | 4 => ⟨S128, .f32⟩
  | 5 => ⟨S128x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S32x64, .f32⟩
  | 12 => ⟨S64, .f32⟩
  | 13 => ⟨S64x128, .f32⟩
  | 14 => ⟨S128, .f32⟩
  | 15 => ⟨S128x128, .f32⟩
  | 16 => ⟨S128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x64, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x64, .f32⟩
  | 83 => ⟨S850000x1, .f32⟩
  | 84 => ⟨S850000x64, .f32⟩
  | 85 => ⟨S850000x64, .f32⟩
  | 86 => ⟨S_, .f32⟩
  | 87 => ⟨S50000x64, .f32⟩
  | 88 => ⟨S850000x1, .i32⟩
  | 89 => ⟨S50000x64, .f32⟩
  | 90 => ⟨S1x64, .f32⟩
  | 91 => ⟨S50000x64, .f32⟩
  | 92 => ⟨S50000x64, .f32⟩
  | 93 => ⟨S50000x32, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x32, .f32⟩
  | 103 => ⟨S850000x1, .f32⟩
  | 104 => ⟨S850000x32, .f32⟩
  | 105 => ⟨S850000x32, .f32⟩
  | 106 => ⟨S_, .f32⟩
  | 107 => ⟨S50000x32, .f32⟩
  | 108 => ⟨S850000x1, .i32⟩
  | 109 => ⟨S50000x32, .f32⟩
  | 110 => ⟨S1x32, .f32⟩
  | 111 => ⟨S50000x32, .f32⟩
  | 112 => ⟨S50000x32, .f32⟩
  | 113 => ⟨S50000x32, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x32, .f32⟩
  | 123 => ⟨S850000x1, .f32⟩
  | 124 => ⟨S850000x32, .f32⟩
  | 125 => ⟨S850000x32, .f32⟩
  | 126 => ⟨S_, .f32⟩
  | 127 => ⟨S50000x32, .f32⟩
  | _ => ⟨S50000x128, .f32⟩

abbrev hbmTy0_1 (i : Nat) : BufTy := match i % 128 with
  | 0 => ⟨S850000x1, .i32⟩
  | 1 => ⟨S50000x32, .f32⟩
  | 2 => ⟨S1x32, .f32⟩
  | 3 => ⟨S50000x32, .f32⟩
  | 4 => ⟨S50000x32, .f32⟩
  | 5 => ⟨S_, .f32⟩
  | 6 => ⟨S50000x32, .f32⟩
  | 7 => ⟨S50000x32, .f32⟩
  | 8 => ⟨S50000x32, .f32⟩
  | 9 => ⟨S50000x32, .f32⟩
  | 10 => ⟨S50000x32, .f32⟩
  | 11 => ⟨S50000x64, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x64, .f32⟩
  | 21 => ⟨S850000x1, .f32⟩
  | 22 => ⟨S850000x64, .f32⟩
  | 23 => ⟨S850000x64, .f32⟩
  | 24 => ⟨S_, .f32⟩
  | 25 => ⟨S50000x64, .f32⟩
  | 26 => ⟨S850000x1, .i32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x128, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x128, .f32⟩
  | 44 => ⟨S850000x1, .f32⟩
  | 45 => ⟨S850000x128, .f32⟩
  | 46 => ⟨S850000x128, .f32⟩
  | 47 => ⟨S_, .f32⟩
  | 48 => ⟨S50000x128, .f32⟩
  | 49 => ⟨S850000x1, .i32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_12 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_c_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_16 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_17 : Ref sig .tc := ⟨.hbm, 140, rfl⟩
abbrev main_v102 : Ref sig .tc := ⟨.hbm, 141, rfl⟩
abbrev main_v103 : Ref sig .tc := ⟨.hbm, 142, rfl⟩
abbrev main_c_18 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_19 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call1_cst : Ref sig .tc := ⟨.hbm, 159, rfl⟩
abbrev main_call1_v0 : Ref sig .tc := ⟨.hbm, 160, rfl⟩
abbrev main_v118 : Ref sig .tc := ⟨.hbm, 161, rfl⟩
abbrev main_v119 : Ref sig .tc := ⟨.hbm, 162, rfl⟩
abbrev main_c_20 : Ref sig .tc := ⟨.hbm, 163, rfl⟩
abbrev main_v120 : Ref sig .tc := ⟨.hbm, 164, rfl⟩
abbrev main_v121 : Ref sig .tc := ⟨.hbm, 165, rfl⟩
abbrev main_c_21 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_22 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_call2_cst : Ref sig .tc := ⟨.hbm, 182, rfl⟩
abbrev main_call2_v0 : Ref sig .tc := ⟨.hbm, 183, rfl⟩
abbrev main_v136 : Ref sig .tc := ⟨.hbm, 184, rfl⟩
abbrev main_v137 : Ref sig .tc := ⟨.hbm, 185, rfl⟩
abbrev main_c_23 : Ref sig .tc := ⟨.hbm, 186, rfl⟩
abbrev main_v138 : Ref sig .tc := ⟨.hbm, 187, rfl⟩
abbrev main_v139 : Ref sig .tc := ⟨.hbm, 188, rfl⟩
abbrev main_c_24 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_25 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  dot_S50000x64_S64x128_S50000x128_1_0_0_1_n_n_wf : DotDims.WF S50000x64 S64x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelRun.lean ====
/-
  The idealized kernel program's run with its FINAL CONTENTS kept.

  @main of the kernel program is eighteen segments: stretches of host operations around seven matrix
  products, each product a pipelined region over five row blocks. The contents of a core's buffers at the
  segment boundaries are a fold from the launch memory: a stretch applies its operations in order, a region
  leaves its output array at what its blocks' write-backs leave and every other buffer as it found it. The
  last stage of that fold is `Gen.W18 m ρ c`. Every weakly fair execution terminates, nothing faulting, and
  in every final state each buffer that is not scoped to a region holds `Gen.W18 m ρ c` at it: the library's
  run theorem for a program of several regions, over the program's segments, with the last thread state
  ("every unscoped buffer at the last stage's contents") read against the final state.
-/
import proofs.«107225_j8890582302924_1_alg».proof.Defs
import proofs.«107225_j8890582302924_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in every final state each unscoped
    buffer of each core holds the last stage of the fold through the segments. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- The same, read at one buffer of the TensorCore that no region scopes: a result or an argument of @main. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W18 m ρ c (Proc.devRef .tc b)) :=
  (θ_run defs _ _).mono (fun r h c b hb => h c _ (mem_uc b hb)) (run_final m ρ)

end Cert.KernelIdeal.RunValue

end
-- ==== Proof.Region0.lean ====
/-
  Matrix product 0 of the kernel program, as ONE function of its two operand arrays.

  The region multiplies a [50000, 128] array by a [128, 128] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 128
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 128] array with a [128, 128] array. -/
def prod (A : FVec Ideal S50000x128 .f32) (B : FVec Ideal S128x128 .f32) : FVec Ideal S50000x128 .f32 :=
  Host.dotGeneral Cert.ReferenceIdeal.dot_S50000x128_S128x128_S50000x128_1_0_0_1_n_n none A B

/-- Entry (r, q) of the whole product is Σ_k A[r, k] · B[k, q]: the operand positions of the host's contraction at
    output position (r, q) and contraction position k are (r, k) and (k, q). -/
theorem prod_apply (A : FVec Ideal S50000x128 .f32) (B : FVec Ideal S128x128 .f32) (r : Fin 50000) (q : Fin 128) :
    prod A B (ix2 r q) = ∑ k : Fin 128, A (ix2 r k) * B (ix2 k q) := by
  unfold prod
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : (Cert.ReferenceIdeal.dot_S50000x128_S128x128_S50000x128_1_0_0_1_n_n).lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact Cert.ReferenceIdeal.Read.lhs_main_v27_0 _ _
    | ⟨1, _⟩ => exact (Cert.ReferenceIdeal.Read.lhs_main_v27_1 _ _).trans hk)
  have er : (Cert.ReferenceIdeal.dot_S50000x128_S128x128_S50000x128_1_0_0_1_n_n).rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (Cert.ReferenceIdeal.Read.rhs_main_v27_0 _ _).trans hk
    | ⟨1, _⟩ => exact Cert.ReferenceIdeal.Read.rhs_main_v27_1 _ _)
  rw [el, er]

/-! The same four coordinate facts for one step's product over a block of 10000 rows. -/
theorem blk_lhs_0 (j : S10000x128.Idx) (κ : (dot_S10000x128_S128x128_S10000x128_1_0_0_1_n_n).contr.Idx) : ((dot_S10000x128_S128x128_S10000x128_1_0_0_1_n_n).lhsIdx j κ 0).val = (j 0).val := by
  unfold DotDims.lhsIdx
  rw [dif_neg (show ¬(0 : Fin S10000x128.rank) ∈ (dot_S10000x128_S128x128_S10000x128_1_0_0_1_n_n).lhsBatch by decide), dif_pos (show (0 : Fin S10000x128.rank) ∈ (dot_S10000x128_S128x128_S10000x128_1_0_0_1_n_n).lhsNonContracting by decide)]
  rfl
theorem blk_lhs_1 (j : S10000x128.Idx) (κ : (dot_S10000x128_S128x128_S10000x128_1_0_0_1_n_n).contr.Idx) : ((dot_S10000x128_S128x128_S10000x128_1_0_0_1_n_n).lhsIdx j κ 1).val = (κ ⟨0, by decide⟩).val :=
  (dot_S10000x128_S128x128_S10000x128_1_0_0_1_n_n).lhsIdx_val_of_single rfl j κ
theorem blk_rhs_0 (j : S10000x128.Idx) (κ : (dot_S10000x128_S128x128_S10000x128_1_0_0_1_n_n).contr.Idx) : ((dot_S10000x128_S128x128_S10000x128_1_0_0_1_n_n).rhsIdx j κ 0).val = (κ ⟨0, by decide⟩).val :=
  (dot_S10000x128_S128x128_S10000x128_1_0_0_1_n_n).rhsIdx_val_of_single rfl j κ
theorem blk_rhs_1 (j : S10000x128.Idx) (κ : (dot_S10000x128_S128x128_S10000x128_1_0_0_1_n_n).contr.Idx) : ((dot_S10000x128_S128x128_S10000x128_1_0_0_1_n_n).rhsIdx j κ 1).val = (j 1).val := by
  unfold DotDims.rhsIdx
  rw [dif_neg (show ¬(1 : Fin S128x128.rank) ∈ (dot_S10000x128_S128x128_S10000x128_1_0_0_1_n_n).rhsBatch by decide), dif_pos (show (1 : Fin S128x128.rank) ∈ (dot_S10000x128_S128x128_S10000x128_1_0_0_1_n_n).rhsNonContracting by decide)]
  rfl

/-- Entry (r, q) of one step's product — the value the body stores — is Σ_k x0[r, k] · x1[k, q]. -/
theorem pay_apply (x0 : Vec Ideal S10000x128 .f32) (x1 : Vec Ideal S128x128 .f32) (r : Fin 10000) (q : Fin 128) :
    k0_pay1 (F := Ideal) x0 x1 (ix2 r q) = ∑ k : Fin 128, x0 (ix2 r k) * x1 (ix2 k q) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : (dot_S10000x128_S128x128_S10000x128_1_0_0_1_n_n).lhsIdx (ix2 r q) ((ValueIdx.contrEquiv1 dot_S10000x128_S128x128_S10000x128_1_0_0_1_n_n 128 rfl rfl).symm k) = ix2 r k := funext fun a => Fin.ext (by
    match a with
    | ⟨0, _⟩ => exact blk_lhs_0 _ _
    | ⟨1, _⟩ => exact (blk_lhs_1 _ _).trans hk)
  have er : (dot_S10000x128_S128x128_S10000x128_1_0_0_1_n_n).rhsIdx (ix2 r q) ((ValueIdx.contrEquiv1 dot_S10000x128_S128x128_S10000x128_1_0_0_1_n_n 128 rfl rfl).symm k) = ix2 k q := funext fun a => Fin.ext (by
    match a with
    | ⟨0, _⟩ => exact (blk_rhs_0 _ _).trans hk
    | ⟨1, _⟩ => exact blk_rhs_1 _ _)
  rw [el, er]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x128 .f32) (B : FVec Ideal S128x128 .f32) (x0 : Vec Ideal S10000x128 .f32) (x1 : Vec Ideal S128x128 .f32)
    (T : Nat) (hT : T < 5)
    (h0 : ∀ (p : Fin 10000) (k : Fin 128), x0 (ix2 p k) = A (ix2 (⟨T * 10000 + p.val, by have := p.isLt; omega⟩ : Fin 50000) k))
    (h1 : ∀ (k : Fin 128) (q : Fin 128), x1 (ix2 k q) = B (ix2 k q))
    (p : Fin 10000) (q : Fin 128) :
    k0_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_five (t : Fin cfg0.N) : t.val < 5 := lt_of_lt_of_eq t.isLt N_0

/-- WHAT STEP `t` WRITES BACK is block `t` of the whole product of the operand arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  have ht := lt_five t
  funext j
  show k0_pay1 (iblk0 V c 0 t) (iblk0 V c 1 t) j = prod (V c main_arg0) (V c main_arg3) (((cfg0.win 2).blk t).view.emb j)
  have hj0 : (j 0).val < 10000 := (j 0).isLt
  have hj1 : (j 1).val < 128 := (j 1).isLt
  have hemb : ((cfg0.win 2).blk t).view.emb j
      = ix2 (⟨t.val * 10000 + (j 0).val, by omega⟩ : Fin 50000) (⟨(j 1).val, hj1⟩ : Fin 128) := by
    funext a; apply Fin.ext
    match a with
    | ⟨0, _⟩ => show win0_2.index t (0 : Fin 2) * 10000 + 1 * (j 0).val = t.val * 10000 + (j 0).val; omega
    | ⟨1, _⟩ => show win0_2.index t (1 : Fin 2) * 128 + 1 * (j 1).val = (j 1).val; omega
  rw [hemb]
  refine (congrArg (k0_pay1 (iblk0 V c 0 t) (iblk0 V c 1 t)) (eq_ix2 j)).trans ?_
  refine step_eq (V c main_arg0) (V c main_arg3) (iblk0 V c 0 t) (iblk0 V c 1 t) t.val ht ?_ ?_ ⟨(j 0).val, hj0⟩ ⟨(j 1).val, hj1⟩
  · intro p k
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- A position of the result array is in step `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- The five row blocks tile the result: row `r` is in the block of step `r / 10000`, and every step writes back. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 10000 < cfg0.N := by rw [show cfg0.N = 5 from N_0]; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    omega

/-- THE RESULT ARRAY after the region: the whole product of the operand arrays as the region found them. -/
theorem value (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0
end
-- ==== Proof.Region1.lean ====
/-
  Matrix product 1 of the kernel program, as ONE function of its two operand arrays.

  The region multiplies a [50000, 128] array by a [128, 64] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 128
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 128] array with a [128, 64] array. -/
def prod (A : FVec Ideal S50000x128 .f32) (B : FVec Ideal S128x64 .f32) : FVec Ideal S50000x64 .f32 :=
  Host.dotGeneral Cert.ReferenceIdeal.dot_S50000x128_S128x64_S50000x64_1_0_0_1_n_n none A B

/-- Entry (r, q) of the whole product is Σ_k A[r, k] · B[k, q]: the operand positions of the host's contraction at
    output position (r, q) and contraction position k are (r, k) and (k, q). -/
theorem prod_apply (A : FVec Ideal S50000x128 .f32) (B : FVec Ideal S128x64 .f32) (r : Fin 50000) (q : Fin 64) :
    prod A B (ix2 r q) = ∑ k : Fin 128, A (ix2 r k) * B (ix2 k q) := by
  unfold prod
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : (Cert.ReferenceIdeal.dot_S50000x128_S128x64_S50000x64_1_0_0_1_n_n).lhsIdx (ix2 r q) ((ValueIdx.contrEquiv1 Cert.ReferenceIdeal.dot_S50000x128_S128x64_S50000x64_1_0_0_1_n_n 128 rfl rfl).symm k) = ix2 r k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : (Cert.ReferenceIdeal.dot_S50000x128_S128x64_S50000x64_1_0_0_1_n_n).rhsIdx (ix2 r q) ((ValueIdx.contrEquiv1 Cert.ReferenceIdeal.dot_S50000x128_S128x64_S50000x64_1_0_0_1_n_n 128 rfl rfl).symm k) = ix2 k q := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-! The same four coordinate facts for one step's product over a block of 10000 rows. -/
theorem blk_lhs_0 (j : S10000x64.Idx) (κ : (dot_S10000x128_S128x64_S10000x64_1_0_0_1_n_n).contr.Idx) : ((dot_S10000x128_S128x64_S10000x64_1_0_0_1_n_n).lhsIdx j κ 0).val = (j 0).val := by
  unfold DotDims.lhsIdx
  rw [dif_neg (show ¬(0 : Fin S10000x128.rank) ∈ (dot_S10000x128_S128x64_S10000x64_1_0_0_1_n_n).lhsBatch by decide), dif_pos (show (0 : Fin S10000x128.rank) ∈ (dot_S10000x128_S128x64_S10000x64_1_0_0_1_n_n).lhsNonContracting by decide)]
  rfl
theorem blk_lhs_1 (j : S10000x64.Idx) (κ : (dot_S10000x128_S128x64_S10000x64_1_0_0_1_n_n).contr.Idx) : ((dot_S10000x128_S128x64_S10000x64_1_0_0_1_n_n).lhsIdx j κ 1).val = (κ ⟨0, by decide⟩).val :=
  (dot_S10000x128_S128x64_S10000x64_1_0_0_1_n_n).lhsIdx_val_of_single rfl j κ
theorem blk_rhs_0 (j : S10000x64.Idx) (κ : (dot_S10000x128_S128x64_S10000x64_1_0_0_1_n_n).contr.Idx) : ((dot_S10000x128_S128x64_S10000x64_1_0_0_1_n_n).rhsIdx j κ 0).val = (κ ⟨0, by decide⟩).val :=
  (dot_S10000x128_S128x64_S10000x64_1_0_0_1_n_n).rhsIdx_val_of_single rfl j κ
theorem blk_rhs_1 (j : S10000x64.Idx) (κ : (dot_S10000x128_S128x64_S10000x64_1_0_0_1_n_n).contr.Idx) : ((dot_S10000x128_S128x64_S10000x64_1_0_0_1_n_n).rhsIdx j κ 1).val = (j 1).val := by
  unfold DotDims.rhsIdx
  rw [dif_neg (show ¬(1 : Fin S128x64.rank) ∈ (dot_S10000x128_S128x64_S10000x64_1_0_0_1_n_n).rhsBatch by decide), dif_pos (show (1 : Fin S128x64.rank) ∈ (dot_S10000x128_S128x64_S10000x64_1_0_0_1_n_n).rhsNonContracting by decide)]
  rfl

/-- Entry (r, q) of one step's product — the value the body stores — is Σ_k x0[r, k] · x1[k, q] (the body first
    reshapes its left block to the block's own shape, which changes nothing). -/
theorem pay_apply (x0 : Vec Ideal S10000x128 .f32) (x1 : Vec Ideal S128x64 .f32) (r : Fin 10000) (q : Fin 64) :
    k1_pay1 (F := Ideal) x0 x1 (ix2 r q) = ∑ k : Fin 128, x0 (ix2 r k) * x1 (ix2 k q) := by
  unfold k1_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : (dot_S10000x128_S128x64_S10000x64_1_0_0_1_n_n).lhsIdx (ix2 r q) ((ValueIdx.contrEquiv1 dot_S10000x128_S128x64_S10000x64_1_0_0_1_n_n 128 rfl rfl).symm k) = ix2 r k := funext fun a => Fin.ext (by
    match a with
    | ⟨0, _⟩ => exact blk_lhs_0 _ _
    | ⟨1, _⟩ => exact (blk_lhs_1 _ _).trans hk)
  have er : (dot_S10000x128_S128x64_S10000x64_1_0_0_1_n_n).rhsIdx (ix2 r q) ((ValueIdx.contrEquiv1 dot_S10000x128_S128x64_S10000x64_1_0_0_1_n_n 128 rfl rfl).symm k) = ix2 k q := funext fun a => Fin.ext (by
    match a with
    | ⟨0, _⟩ => exact (blk_rhs_0 _ _).trans hk
    | ⟨1, _⟩ => exact blk_rhs_1 _ _)
  rw [el, er, shapeCast_self]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x128 .f32) (B : FVec Ideal S128x64 .f32) (x0 : Vec Ideal S10000x128 .f32) (x1 : Vec Ideal S128x64 .f32)
    (T : Nat) (hT : T < 5)
    (h0 : ∀ (p : Fin 10000) (k : Fin 128), x0 (ix2 p k) = A (ix2 (⟨T * 10000 + p.val, by have := p.isLt; omega⟩ : Fin 50000) k))
    (h1 : ∀ (k : Fin 128) (q : Fin 64), x1 (ix2 k q) = B (ix2 k q))
    (p : Fin 10000) (q : Fin 64) :
    k1_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_five (t : Fin cfg1.N) : t.val < 5 := lt_of_lt_of_eq t.isLt N_1

/-- WHAT STEP `t` WRITES BACK is block `t` of the whole product of the operand arrays as the region finds them. -/
theorem flushed_eq (c : Dev nD) (t : Fin cfg1.N) :
    (dat1 V c).flushed 2 t = ((cfg1.win 2).blk t).view.read (Elt Ideal) (prod (V c main_v44) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4, e5⟩ := idx_facts t
  have ht := lt_five t
  funext j
  show k1_pay1 (iblk1 V c 0 t) (iblk1 V c 1 t) j = prod (V c main_v44) (V c main_arg5) (((cfg1.win 2).blk t).view.emb j)
  have hj0 : (j 0).val < 10000 := (j 0).isLt
  have hj1 : (j 1).val < 64 := (j 1).isLt
  have hemb : ((cfg1.win 2).blk t).view.emb j
      = ix2 (⟨t.val * 10000 + (j 0).val, by omega⟩ : Fin 50000) (⟨(j 1).val, hj1⟩ : Fin 64) := by
    funext a; apply Fin.ext
    match a with
    | ⟨0, _⟩ => show win1_2.index t (0 : Fin 2) * 10000 + 1 * (j 0).val = t.val * 10000 + (j 0).val; omega
    | ⟨1, _⟩ => show win1_2.index t (1 : Fin 2) * 64 + 1 * (j 1).val = (j 1).val; omega
  rw [hemb]
  refine (congrArg (k1_pay1 (iblk1 V c 0 t) (iblk1 V c 1 t)) (eq_ix2 j)).trans ?_
  refine step_eq (V c main_v44) (V c main_arg5) (iblk1 V c 0 t) (iblk1 V c 1 t) t.val ht ?_ ?_ ⟨(j 0).val, hj0⟩ ⟨(j 1).val, hj1⟩
  · intro p k
    show V c main_v44 (((cfg1.win 0).blk t).view.emb (ix2 p k)) = _
    refine congrArg (V c main_v44) ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  · intro k q
    show V c main_arg5 (((cfg1.win 1).blk t).view.emb (ix2 k q)) = _
    refine congrArg (V c main_arg5) ?_
    funext a; apply Fin.ext
    match a with
    | ⟨0, _⟩ => show win1_1.index t (0 : Fin 2) * 128 + 1 * k.val = k.val; omega
    | ⟨1, _⟩ => show win1_1.index t (1 : Fin 2) * 64 + 1 * q.val = q.val; omega

/-- A position of the result array is in step `t`'s block iff each coordinate is in the block's range on its axis. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The five row blocks tile the result: row `r` is in the block of step `r / 10000`, and every step writes back. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hlt : (i 0).val / 10000 < cfg1.N := by rw [show cfg1.N = 5 from N_1]; omega
  obtain ⟨e0, e1, e2, e3, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val ∧ (i 1).val < win1_2.index ⟨(i 0).val / 10000, hlt⟩ (1 : Fin 2) * 64 + 64
    omega

/-- THE RESULT ARRAY after the region: the whole product of the operand arrays as the region found them. -/
theorem value (c : Dev nD) : (dat1 V c).arrAt 2 cfg1.N = prod (V c main_v44) (V c main_arg5) :=
  (dat1 V c).arrAt_eq_of_cover 2 (prod (V c main_v44) (V c main_arg5)) (fun t _ => flushed_eq V c t) cover

end Cert.KernelIdeal.Region1
end
-- ==== Proof.Region2.lean ====
/-
  Matrix product 2 of the kernel program, as ONE function of its two operand arrays.

  The region multiplies a [50000, 64] array by a [64, 32] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 64
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 64] array with a [64, 32] array. -/
def prod (A : FVec Ideal S50000x64 .f32) (B : FVec Ideal S64x32 .f32) : FVec Ideal S50000x32 .f32 :=
  Host.dotGeneral Cert.ReferenceIdeal.dot_S50000x64_S64x32_S50000x32_1_0_0_1_n_n none A B

/-- Entry (r, q) of the whole product is Σ_k A[r, k] · B[k, q]: the operand positions of the host's contraction at
    output position (r, q) and contraction position k are (r, k) and (k, q). -/
theorem prod_apply (A : FVec Ideal S50000x64 .f32) (B : FVec Ideal S64x32 .f32) (r : Fin 50000) (q : Fin 32) :
    prod A B (ix2 r q) = ∑ k : Fin 64, A (ix2 r k) * B (ix2 k q) := by
  unfold prod
  simp only [Host.dotGeneral]
  rw [Ideal.dotGeneral_apply, ← Equiv.sum_comp (ValueIdx.contrEquiv1 Cert.ReferenceIdeal.dot_S50000x64_S64x32_S50000x32_1_0_0_1_n_n 64 rfl rfl).symm]
  refine Finset.sum_congr rfl fun k _ => ?_
  have hk := ValueIdx.contrEquiv1_symm_val Cert.ReferenceIdeal.dot_S50000x64_S64x32_S50000x32_1_0_0_1_n_n 64 rfl rfl k
  have el : (Cert.ReferenceIdeal.dot_S50000x64_S64x32_S50000x32_1_0_0_1_n_n).lhsIdx (ix2 r q) ((ValueIdx.contrEquiv1 Cert.ReferenceIdeal.dot_S50000x64_S64x32_S50000x32_1_0_0_1_n_n 64 rfl rfl).symm k) = ix2 r k := funext fun a => Fin.ext (by
    match a with
    | ⟨0, _⟩ => exact Cert.ReferenceIdeal.Read.lhs_main_v62_0 _ _
    | ⟨1, _⟩ => exact (Cert.ReferenceIdeal.Read.lhs_main_v62_1 _ _).trans hk)
  have er : (Cert.ReferenceIdeal.dot_S50000x64_S64x32_S50000x32_1_0_0_1_n_n).rhsIdx (ix2 r q) ((ValueIdx.contrEquiv1 Cert.ReferenceIdeal.dot_S50000x64_S64x32_S50000x32_1_0_0_1_n_n 64 rfl rfl).symm k) = ix2 k q := funext fun a => Fin.ext (by
    match a with
    | ⟨0, _⟩ => exact (Cert.ReferenceIdeal.Read.rhs_main_v62_0 _ _).trans hk
    | ⟨1, _⟩ => exact Cert.ReferenceIdeal.Read.rhs_main_v62_1 _ _)
  rw [el, er]

/-! The same four coordinate facts for one step's product over a block of 10000 rows. -/
theorem blk_lhs_0 (j : S10000x32.Idx) (κ : (dot_S10000x64_S64x32_S10000x32_1_0_0_1_n_n).contr.Idx) : ((dot_S10000x64_S64x32_S10000x32_1_0_0_1_n_n).lhsIdx j κ 0).val = (j 0).val := by
  unfold DotDims.lhsIdx
  rw [dif_neg (show ¬(0 : Fin S10000x64.rank) ∈ (dot_S10000x64_S64x32_S10000x32_1_0_0_1_n_n).lhsBatch by decide), dif_pos (show (0 : Fin S10000x64.rank) ∈ (dot_S10000x64_S64x32_S10000x32_1_0_0_1_n_n).lhsNonContracting by decide)]
  rfl
theorem blk_lhs_1 (j : S10000x32.Idx) (κ : (dot_S10000x64_S64x32_S10000x32_1_0_0_1_n_n).contr.Idx) : ((dot_S10000x64_S64x32_S10000x32_1_0_0_1_n_n).lhsIdx j κ 1).val = (κ ⟨0, by decide⟩).val :=
  (dot_S10000x64_S64x32_S10000x32_1_0_0_1_n_n).lhsIdx_val_of_single rfl j κ
theorem blk_rhs_0 (j : S10000x32.Idx) (κ : (dot_S10000x64_S64x32_S10000x32_1_0_0_1_n_n).contr.Idx) : ((dot_S10000x64_S64x32_S10000x32_1_0_0_1_n_n).rhsIdx j κ 0).val = (κ ⟨0, by decide⟩).val :=
  (dot_S10000x64_S64x32_S10000x32_1_0_0_1_n_n).rhsIdx_val_of_single rfl j κ
theorem blk_rhs_1 (j : S10000x32.Idx) (κ : (dot_S10000x64_S64x32_S10000x32_1_0_0_1_n_n).contr.Idx) : ((dot_S10000x64_S64x32_S10000x32_1_0_0_1_n_n).rhsIdx j κ 1).val = (j 1).val := by
  unfold DotDims.rhsIdx
  rw [dif_neg (show ¬(1 : Fin S64x32.rank) ∈ (dot_S10000x64_S64x32_S10000x32_1_0_0_1_n_n).rhsBatch by decide), dif_pos (show (1 : Fin S64x32.rank) ∈ (dot_S10000x64_S64x32_S10000x32_1_0_0_1_n_n).rhsNonContracting by decide)]
  rfl

/-- Entry (r, q) of one step's product — the value the body stores — is Σ_k x0[r, k] · x1[k, q] (the body first
    reshapes its left block to the block's own shape, which changes nothing). -/
theorem pay_apply (x0 : Vec Ideal S10000x64 .f32) (x1 : Vec Ideal S64x32 .f32) (r : Fin 10000) (q : Fin 32) :
    k2_pay1 (F := Ideal) x0 x1 (ix2 r q) = ∑ k : Fin 64, x0 (ix2 r k) * x1 (ix2 k q) := by
  unfold k2_pay1
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : (dot_S10000x64_S64x32_S10000x32_1_0_0_1_n_n).lhsIdx (ix2 r q) ((ValueIdx.contrEquiv1 dot_S10000x64_S64x32_S10000x32_1_0_0_1_n_n 64 rfl rfl).symm k) = ix2 r k := funext fun a => Fin.ext (by
    match a with
    | ⟨0, _⟩ => exact blk_lhs_0 _ _
    | ⟨1, _⟩ => exact (blk_lhs_1 _ _).trans hk)
  have er : (dot_S10000x64_S64x32_S10000x32_1_0_0_1_n_n).rhsIdx (ix2 r q) ((ValueIdx.contrEquiv1 dot_S10000x64_S64x32_S10000x32_1_0_0_1_n_n 64 rfl rfl).symm k) = ix2 k q := funext fun a => Fin.ext (by
    match a with
    | ⟨0, _⟩ => exact (blk_rhs_0 _ _).trans hk
    | ⟨1, _⟩ => exact blk_rhs_1 _ _)
  rw [el, er, shapeCast_self]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x64 .f32) (B : FVec Ideal S64x32 .f32) (x0 : Vec Ideal S10000x64 .f32) (x1 : Vec Ideal S64x32 .f32)
    (T : Nat) (hT : T < 5)
    (h0 : ∀ (p : Fin 10000) (k : Fin 64), x0 (ix2 p k) = A (ix2 (⟨T * 10000 + p.val, by have := p.isLt; omega⟩ : Fin 50000) k))
    (h1 : ∀ (k : Fin 64) (q : Fin 32), x1 (ix2 k q) = B (ix2 k q))
    (p : Fin 10000) (q : Fin 32) :
    k2_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_five (t : Fin cfg2.N) : t.val < 5 := lt_of_lt_of_eq t.isLt N_2

/-- WHAT STEP `t` WRITES BACK is block `t` of the whole product of the operand arrays as the region finds them. -/
theorem flushed_eq (c : Dev nD) (t : Fin cfg2.N) :
    (dat2 V c).flushed 2 t = ((cfg2.win 2).blk t).view.read (Elt Ideal) (prod (V c main_v61) (V c main_arg7)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x32) hz]
  obtain ⟨e0, e1, e2, e3, e4, e5⟩ := idx_facts t
  have ht := lt_five t
  funext j
  show k2_pay1 (iblk2 V c 0 t) (iblk2 V c 1 t) j = prod (V c main_v61) (V c main_arg7) (((cfg2.win 2).blk t).view.emb j)
  have hj0 : (j 0).val < 10000 := (j 0).isLt
  have hj1 : (j 1).val < 32 := (j 1).isLt
  have hemb : ((cfg2.win 2).blk t).view.emb j
      = ix2 (⟨t.val * 10000 + (j 0).val, by omega⟩ : Fin 50000) (⟨(j 1).val, hj1⟩ : Fin 32) := by
    funext a; apply Fin.ext
    match a with
    | ⟨0, _⟩ => show win2_2.index t (0 : Fin 2) * 10000 + 1 * (j 0).val = t.val * 10000 + (j 0).val; omega
    | ⟨1, _⟩ => show win2_2.index t (1 : Fin 2) * 32 + 1 * (j 1).val = (j 1).val; omega
  rw [hemb]
  refine (congrArg (k2_pay1 (iblk2 V c 0 t) (iblk2 V c 1 t)) (eq_ix2 j)).trans ?_
  refine step_eq (V c main_v61) (V c main_arg7) (iblk2 V c 0 t) (iblk2 V c 1 t) t.val ht ?_ ?_ ⟨(j 0).val, hj0⟩ ⟨(j 1).val, hj1⟩
  · intro p k
    show V c main_v61 (((cfg2.win 0).blk t).view.emb (ix2 p k)) = _
    refine congrArg (V c main_v61) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  · intro k q
    show V c main_arg7 (((cfg2.win 1).blk t).view.emb (ix2 k q)) = _
    refine congrArg (V c main_arg7) ?_
    funext a; apply Fin.ext
    match a with
    | ⟨0, _⟩ => show win2_1.index t (0 : Fin 2) * 64 + 1 * k.val = k.val; omega
    | ⟨1, _⟩ => show win2_1.index t (1 : Fin 2) * 32 + 1 * q.val = q.val; omega

/-- A position of the result array is in step `t`'s block iff each coordinate is in the block's range on its axis. -/
theorem mem_blk (t : Fin cfg2.N) (i : S50000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v62).slice (win2_2.rect t)).set ↔ _
  rw [View.set_slice_whole, Rect.mem_set_unit]
  exact Iff.rfl

/-- The five row blocks tile the result: row `r` is in the block of step `r / 10000`, and every step writes back. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  have hlt : (i 0).val / 10000 < cfg2.N := by rw [show cfg2.N = 5 from N_2]; omega
  obtain ⟨e0, e1, e2, e3, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 32 ≤ (i 1).val ∧ (i 1).val < win2_2.index ⟨(i 0).val / 10000, hlt⟩ (1 : Fin 2) * 32 + 32
    omega

/-- THE RESULT ARRAY after the region: the whole product of the operand arrays as the region found them. -/
theorem value (c : Dev nD) : (dat2 V c).arrAt 2 cfg2.N = prod (V c main_v61) (V c main_arg7) :=
  (dat2 V c).arrAt_eq_of_cover 2 (prod (V c main_v61) (V c main_arg7)) (fun t _ => flushed_eq V c t) cover

end Cert.KernelIdeal.Region2
end
-- ==== Proof.Region3.lean ====
/-
  Matrix product 3 of the kernel program, as ONE function of its two operand arrays.

  The region multiplies a [50000, 64] array by a [64, 32] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 64
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region3

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 64] array with a [64, 32] array. -/
def prod (A : FVec Ideal S50000x64 .f32) (B : FVec Ideal S64x32 .f32) : FVec Ideal S50000x32 .f32 :=
  Host.dotGeneral Cert.ReferenceIdeal.dot_S50000x64_S64x32_S50000x32_1_0_0_1_n_n none A B

/-- Entry (r, q) of the whole product is Σ_k A[r, k] · B[k, q]: the operand positions of the host's contraction at
    output position (r, q) and contraction position k are (r, k) and (k, q). -/
theorem prod_apply (A : FVec Ideal S50000x64 .f32) (B : FVec Ideal S64x32 .f32) (r : Fin 50000) (q : Fin 32) :
    prod A B (ix2 r q) = ∑ k : Fin 64, A (ix2 r k) * B (ix2 k q) := by
  unfold prod
  simp only [Host.dotGeneral]
  rw [Ideal.dotGeneral_apply, ← Equiv.sum_comp (ValueIdx.contrEquiv1 Cert.ReferenceIdeal.dot_S50000x64_S64x32_S50000x32_1_0_0_1_n_n 64 rfl rfl).symm]
  refine Finset.sum_congr rfl fun k _ => ?_
  have hk := ValueIdx.contrEquiv1_symm_val Cert.ReferenceIdeal.dot_S50000x64_S64x32_S50000x32_1_0_0_1_n_n 64 rfl rfl k
  have el : (Cert.ReferenceIdeal.dot_S50000x64_S64x32_S50000x32_1_0_0_1_n_n).lhsIdx (ix2 r q) ((ValueIdx.contrEquiv1 Cert.ReferenceIdeal.dot_S50000x64_S64x32_S50000x32_1_0_0_1_n_n 64 rfl rfl).symm k) = ix2 r k := funext fun a => Fin.ext (by
    match a with
    | ⟨0, _⟩ => exact Cert.ReferenceIdeal.Read.lhs_main_v79_0 _ _
    | ⟨1, _⟩ => exact (Cert.ReferenceIdeal.Read.lhs_main_v79_1 _ _).trans hk)
  have er : (Cert.ReferenceIdeal.dot_S50000x64_S64x32_S50000x32_1_0_0_1_n_n).rhsIdx (ix2 r q) ((ValueIdx.contrEquiv1 Cert.ReferenceIdeal.dot_S50000x64_S64x32_S50000x32_1_0_0_1_n_n 64 rfl rfl).symm k) = ix2 k q := funext fun a => Fin.ext (by
    match a with
    | ⟨0, _⟩ => exact (Cert.ReferenceIdeal.Read.rhs_main_v79_0 _ _).trans hk
    | ⟨1, _⟩ => exact Cert.ReferenceIdeal.Read.rhs_main_v79_1 _ _)
  rw [el, er]

/-! The same four coordinate facts for one step's product over a block of 10000 rows. -/
theorem blk_lhs_0 (j : S10000x32.Idx) (κ : (dot_S10000x64_S64x32_S10000x32_1_0_0_1_n_n).contr.Idx) : ((dot_S10000x64_S64x32_S10000x32_1_0_0_1_n_n).lhsIdx j κ 0).val = (j 0).val := by
  unfold DotDims.lhsIdx
  rw [dif_neg (show ¬(0 : Fin S10000x64.rank) ∈ (dot_S10000x64_S64x32_S10000x32_1_0_0_1_n_n).lhsBatch by decide), dif_pos (show (0 : Fin S10000x64.rank) ∈ (dot_S10000x64_S64x32_S10000x32_1_0_0_1_n_n).lhsNonContracting by decide)]
  rfl
theorem blk_lhs_1 (j : S10000x32.Idx) (κ : (dot_S10000x64_S64x32_S10000x32_1_0_0_1_n_n).contr.Idx) : ((dot_S10000x64_S64x32_S10000x32_1_0_0_1_n_n).lhsIdx j κ 1).val = (κ ⟨0, by decide⟩).val :=
  (dot_S10000x64_S64x32_S10000x32_1_0_0_1_n_n).lhsIdx_val_of_single rfl j κ
theorem blk_rhs_0 (j : S10000x32.Idx) (κ : (dot_S10000x64_S64x32_S10000x32_1_0_0_1_n_n).contr.Idx) : ((dot_S10000x64_S64x32_S10000x32_1_0_0_1_n_n).rhsIdx j κ 0).val = (κ ⟨0, by decide⟩).val :=
  (dot_S10000x64_S64x32_S10000x32_1_0_0_1_n_n).rhsIdx_val_of_single rfl j κ
theorem blk_rhs_1 (j : S10000x32.Idx) (κ : (dot_S10000x64_S64x32_S10000x32_1_0_0_1_n_n).contr.Idx) : ((dot_S10000x64_S64x32_S10000x32_1_0_0_1_n_n).rhsIdx j κ 1).val = (j 1).val := by
  unfold DotDims.rhsIdx
  rw [dif_neg (show ¬(1 : Fin S64x32.rank) ∈ (dot_S10000x64_S64x32_S10000x32_1_0_0_1_n_n).rhsBatch by decide), dif_pos (show (1 : Fin S64x32.rank) ∈ (dot_S10000x64_S64x32_S10000x32_1_0_0_1_n_n).rhsNonContracting by decide)]
  rfl

/-- Entry (r, q) of one step's product — the value the body stores — is Σ_k x0[r, k] · x1[k, q] (the body first
    reshapes its left block to the block's own shape, which changes nothing). -/
theorem pay_apply (x0 : Vec Ideal S10000x64 .f32) (x1 : Vec Ideal S64x32 .f32) (r : Fin 10000) (q : Fin 32) :
    k3_pay1 (F := Ideal) x0 x1 (ix2 r q) = ∑ k : Fin 64, x0 (ix2 r k) * x1 (ix2 k q) := by
  unfold k3_pay1
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : (dot_S10000x64_S64x32_S10000x32_1_0_0_1_n_n).lhsIdx (ix2 r q) ((ValueIdx.contrEquiv1 dot_S10000x64_S64x32_S10000x32_1_0_0_1_n_n 64 rfl rfl).symm k) = ix2 r k := funext fun a => Fin.ext (by
    match a with
    | ⟨0, _⟩ => exact blk_lhs_0 _ _
    | ⟨1, _⟩ => exact (blk_lhs_1 _ _).trans hk)
  have er : (dot_S10000x64_S64x32_S10000x32_1_0_0_1_n_n).rhsIdx (ix2 r q) ((ValueIdx.contrEquiv1 dot_S10000x64_S64x32_S10000x32_1_0_0_1_n_n 64 rfl rfl).symm k) = ix2 k q := funext fun a => Fin.ext (by
    match a with
    | ⟨0, _⟩ => exact (blk_rhs_0 _ _).trans hk
    | ⟨1, _⟩ => exact blk_rhs_1 _ _)
  rw [el, er, shapeCast_self]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x64 .f32) (B : FVec Ideal S64x32 .f32) (x0 : Vec Ideal S10000x64 .f32) (x1 : Vec Ideal S64x32 .f32)
    (T : Nat) (hT : T < 5)
    (h0 : ∀ (p : Fin 10000) (k : Fin 64), x0 (ix2 p k) = A (ix2 (⟨T * 10000 + p.val, by have := p.isLt; omega⟩ : Fin 50000) k))
    (h1 : ∀ (k : Fin 64) (q : Fin 32), x1 (ix2 k q) = B (ix2 k q))
    (p : Fin 10000) (q : Fin 32) :
    k3_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_five (t : Fin cfg3.N) : t.val < 5 := lt_of_lt_of_eq t.isLt N_3

/-- WHAT STEP `t` WRITES BACK is block `t` of the whole product of the operand arrays as the region finds them. -/
theorem flushed_eq (c : Dev nD) (t : Fin cfg3.N) :
    (dat3 V c).flushed 2 t = ((cfg3.win 2).blk t).view.read (Elt Ideal) (prod (V c main_v61) (V c main_arg9)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x32) hz]
  obtain ⟨e0, e1, e2, e3, e4, e5⟩ := idx_facts t
  have ht := lt_five t
  funext j
  show k3_pay1 (iblk3 V c 0 t) (iblk3 V c 1 t) j = prod (V c main_v61) (V c main_arg9) (((cfg3.win 2).blk t).view.emb j)
  have hj0 : (j 0).val < 10000 := (j 0).isLt
  have hj1 : (j 1).val < 32 := (j 1).isLt
  have hemb : ((cfg3.win 2).blk t).view.emb j
      = ix2 (⟨t.val * 10000 + (j 0).val, by omega⟩ : Fin 50000) (⟨(j 1).val, hj1⟩ : Fin 32) := by
    funext a; apply Fin.ext
    match a with
    | ⟨0, _⟩ => show win3_2.index t (0 : Fin 2) * 10000 + 1 * (j 0).val = t.val * 10000 + (j 0).val; omega
    | ⟨1, _⟩ => show win3_2.index t (1 : Fin 2) * 32 + 1 * (j 1).val = (j 1).val; omega
  rw [hemb]
  refine (congrArg (k3_pay1 (iblk3 V c 0 t) (iblk3 V c 1 t)) (eq_ix2 j)).trans ?_
  refine step_eq (V c main_v61) (V c main_arg9) (iblk3 V c 0 t) (iblk3 V c 1 t) t.val ht ?_ ?_ ⟨(j 0).val, hj0⟩ ⟨(j 1).val, hj1⟩
  · intro p k
    show V c main_v61 (((cfg3.win 0).blk t).view.emb (ix2 p k)) = _
    refine congrArg (V c main_v61) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  · intro k q
    show V c main_arg9 (((cfg3.win 1).blk t).view.emb (ix2 k q)) = _
    refine congrArg (V c main_arg9) ?_
    funext a; apply Fin.ext
    match a with
    | ⟨0, _⟩ => show win3_1.index t (0 : Fin 2) * 64 + 1 * k.val = k.val; omega
    | ⟨1, _⟩ => show win3_1.index t (1 : Fin 2) * 32 + 1 * q.val = q.val; omega

/-- A position of the result array is in step `t`'s block iff each coordinate is in the block's range on its axis. -/
theorem mem_blk (t : Fin cfg3.N) (i : S50000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v79).slice (win3_2.rect t)).set ↔ _
  rw [View.set_slice_whole, Rect.mem_set_unit]
  exact Iff.rfl

/-- The five row blocks tile the result: row `r` is in the block of step `r / 10000`, and every step writes back. -/
theorem cover (i : S50000x32.Idx) : ∃ t : Fin cfg3.N, (cfg3.win 2).flush t = true ∧ i ∈ ((cfg3.win 2).blk t).view.set := by
  have hi0 : (i 0).val < 50000 := (i 0).isLt
  have hi1 : (i 1).val < 32 := (i 1).isLt
  have hlt : (i 0).val / 10000 < cfg3.N := by rw [show cfg3.N = 5 from N_3]; omega
  obtain ⟨e0, e1, e2, e3, e4, e5⟩ := idx_facts ⟨(i 0).val / 10000, hlt⟩
  refine ⟨⟨(i 0).val / 10000, hlt⟩, flush3_2 _, ?_⟩
  rw [mem_blk]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ (1 : Fin 2) * 32 ≤ (i 1).val ∧ (i 1).val < win3_2.index ⟨(i 0).val / 10000, hlt⟩ (1 : Fin 2) * 32 + 32
    omega

/-- THE RESULT ARRAY after the region: the whole product of the operand arrays as the region found them. -/
theorem value (c : Dev nD) : (dat3 V c).arrAt 2 cfg3.N = prod (V c main_v61) (V c main_arg9) :=
  (dat3 V c).arrAt_eq_of_cover 2 (prod (V c main_v61) (V c main_arg9)) (fun t _ => flushed_eq V c t) cover

end Cert.KernelIdeal.Region3
end
-- ==== Proof.Region4.lean ====
/-
  Matrix product 4 of the kernel program, as ONE function of its two operand arrays.

  The region multiplies a [50000, 32] array by a [32, 64] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 32
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region4

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 32] array with a [32, 64] array. -/
def prod (A : FVec Ideal S50000x32 .f32) (B : FVec Ideal S32x64 .f32) : FVec Ideal S50000x64 .f32 :=
  Host.dotGeneral Cert.ReferenceIdeal.dot_S50000x32_S32x64_S50000x64_1_0_0_1_n_n none A B

/-- Entry (r, q) of the whole product is Σ_k A[r, k] · B[k, q]: the operand positions of the host's contraction at
    output position (r, q) and contraction position k are (r, k) and (k, q). -/
theorem prod_apply (A : FVec Ideal S50000x32 .f32) (B : FVec Ideal S32x64 .f32) (r : Fin 50000) (q : Fin 64) :
    prod A B (ix2 r q) = ∑ k : Fin 32, A (ix2 r k) * B (ix2 k q) := by
  unfold prod
  simp only [Host.dotGeneral]
  rw [Ideal.dotGeneral_apply, ← Equiv.sum_comp (ValueIdx.contrEquiv1 Cert.ReferenceIdeal.dot_S50000x32_S32x64_S50000x64_1_0_0_1_n_n 32 rfl rfl).symm]
  refine Finset.sum_congr rfl fun k _ => ?_
  have hk := ValueIdx.contrEquiv1_symm_val Cert.ReferenceIdeal.dot_S50000x32_S32x64_S50000x64_1_0_0_1_n_n 32 rfl rfl k
  have el : (Cert.ReferenceIdeal.dot_S50000x32_S32x64_S50000x64_1_0_0_1_n_n).lhsIdx (ix2 r q) ((ValueIdx.contrEquiv1 Cert.ReferenceIdeal.dot_S50000x32_S32x64_S50000x64_1_0_0_1_n_n 32 rfl rfl).symm k) = ix2 r k := funext fun a => Fin.ext (by
    match a with
    | ⟨0, _⟩ => exact Cert.ReferenceIdeal.Read.lhs_main_v101_0 _ _
    | ⟨1, _⟩ => exact (Cert.ReferenceIdeal.Read.lhs_main_v101_1 _ _).trans hk)
  have er : (Cert.ReferenceIdeal.dot_S50000x32_S32x64_S50000x64_1_0_0_1_n_n).rhsIdx (ix2 r q) ((ValueIdx.contrEquiv1 Cert.ReferenceIdeal.dot_S50000x32_S32x64_S50000x64_1_0_0_1_n_n 32 rfl rfl).symm k) = ix2 k q := funext fun a => Fin.ext (by
    match a with
    | ⟨0, _⟩ => exact (Cert.ReferenceIdeal.Read.rhs_main_v101_0 _ _).trans hk
    | ⟨1, _⟩ => exact Cert.ReferenceIdeal.Read.rhs_main_v101_1 _ _)
  rw [el, er]

/-! The same four coordinate facts for one step's product over a block of 10000 rows. -/
theorem blk_lhs_0 (j : S10000x64.Idx) (κ : (dot_S10000x32_S32x64_S10000x64_1_0_0_1_n_n).contr.Idx) : ((dot_S10000x32_S32x64_S10000x64_1_0_0_1_n_n).lhsIdx j κ 0).val = (j 0).val := by
  unfold DotDims.lhsIdx
  rw [dif_neg (show ¬(0 : Fin S10000x32.rank) ∈ (dot_S10000x32_S32x64_S10000x64_1_0_0_1_n_n).lhsBatch by decide), dif_pos (show (0 : Fin S10000x32.rank) ∈ (dot_S10000x32_S32x64_S10000x64_1_0_0_1_n_n).lhsNonContracting by decide)]
  rfl
theorem blk_lhs_1 (j : S10000x64.Idx) (κ : (dot_S10000x32_S32x64_S10000x64_1_0_0_1_n_n).contr.Idx) : ((dot_S10000x32_S32x64_S10000x64_1_0_0_1_n_n).lhsIdx j κ 1).val = (κ ⟨0, by decide⟩).val :=
  (dot_S10000x32_S32x64_S10000x64_1_0_0_1_n_n).lhsIdx_val_of_single rfl j κ
theorem blk_rhs_0 (j : S10000x64.Idx) (κ : (dot_S10000x32_S32x64_S10000x64_1_0_0_1_n_n).contr.Idx) : ((dot_S10000x32_S32x64_S10000x64_1_0_0_1_n_n).rhsIdx j κ 0).val = (κ ⟨0, by decide⟩).val :=
  (dot_S10000x32_S32x64_S10000x64_1_0_0_1_n_n).rhsIdx_val_of_single rfl j κ
theorem blk_rhs_1 (j : S10000x64.Idx) (κ : (dot_S10000x32_S32x64_S10000x64_1_0_0_1_n_n).contr.Idx) : ((dot_S10000x32_S32x64_S10000x64_1_0_0_1_n_n).rhsIdx j κ 1).val = (j 1).val := by
  unfold DotDims.rhsIdx
  rw [dif_neg (show ¬(1 : Fin S32x64.rank) ∈ (dot_S10000x32_S32x64_S10000x64_1_0_0_1_n_n).rhsBatch by decide), dif_pos (show (1 : Fin S32x64.rank) ∈ (dot_S10000x32_S32x64_S10000x64_1_0_0_1_n_n).rhsNonContracting by decide)]
  rfl

/-- Entry (r, q) of one step's product — the value the body stores — is Σ_k x0[r, k] · x1[k, q] (the body first
    reshapes its left block to the block's own shape, which changes nothing). -/
theorem pay_apply (x0 : Vec Ideal S10000x32 .f32) (x1 : Vec Ideal S32x64 .f32) (r : Fin 10000) (q : Fin 64) :
    k4_pay1 (F := Ideal) x0 x1 (ix2 r q) = ∑ k : Fin 32, x0 (ix2 r k) * x1 (ix2 k q) := by
  unfold k4_pay1
  simp only [matmul]
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : (dot_S10000x32_S32x64_S10000x64_1_0_0_1_n_n).lhsIdx (ix2 r q) ((ValueIdx.contrEquiv1 dot_S10000x32_S32x64_S10000x64_1_0_0_1_n_n 32 rfl rfl).symm k) = ix2 r k := funext fun a => Fin.ext (by
    match a with
    | ⟨0, _⟩ => exact blk_lhs_0 _ _
    | ⟨1, _⟩ => exact (blk_lhs_1 _ _).trans hk)
  have er : (dot_S10000x32_S32x64_S10000x64_1_0_0_1_n_n).rhsIdx (ix2 r q) ((ValueIdx.contrEquiv1 dot_S10000x32_S32x64_S10000x64_1_0_0_1_n_n 32 rfl rfl).symm k) = ix2 k q := funext fun a => Fin.ext (by
    match a with
    | ⟨0, _⟩ => exact (blk_rhs_0 _ _).trans hk
    | ⟨1, _⟩ => exact blk_rhs_1 _ _)
  rw [el, er, shapeCast_self]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x32 .f32) (B : FVec Ideal S32x64 .f32) (x0 : Vec Ideal S10000x32 .f32) (x1 : Vec Ideal S32x64 .f32)
    (T : Nat) (hT : T < 5)
    (h0 : ∀ (p : Fin 10000) (k : Fin 32), x0 (ix2 p k) = A (ix2 (⟨T * 10000 + p.val, by have := p.isLt; omega⟩ : Fin 50000) k))
    (h1 : ∀ (k : Fin 32) (q : Fin 64), x1 (ix2 k q) = B (ix2 k q))
    (p : Fin 10000) (q : Fin 64) :
    k4_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt_five (t : Fin cfg4.N) : t.val < 5 := lt_of_lt_of_eq t.isLt N_4

/-- WHAT STEP `t` WRITES BACK is block `t` of the whole product of the operand arrays as the region finds them. -/
theorem flushed_eq (c : Dev nD) (t : Fin cfg4.N) :
    (dat4 V c).flushed 2 t = ((cfg4.win 2).blk t).view.read (Elt Ideal) (prod (V c main_v100) (V c main_arg11)) := by
  show (cfg4.win 2).cut (grid4.coords t) ((dat4 V c).after 2 t) = _
  rw [after4_2]
  unfold out4_2
  rw [View.canon_unit_zero hz]
  simp only [View.ld_unit_zero (S := S10000x32) hz, View.ld_unit_zero (S := S32x64) hz]
  obtain ⟨e0, e1, e2, e3, e4, e5⟩ := idx_facts t
  have ht := lt_five t
  funext j
  show k4_pay1 (iblk4 V c 0 t) (iblk4 V c 1 t) j = prod (V c main_v100) (V c main_arg11) (((cfg4.win 2).blk t).view.emb j)
  have hj0 : (j 0).val < 10000 := (j 0).isLt
  have hj1 : (j 1).val < 64 := (j 1).isLt
  have hemb : ((cfg4.win 2).blk t).view.emb j
      = ix2 (⟨t.val * 10000 + (j 0).val, by omega⟩ : Fin 50000) (⟨(j 1).val, hj1⟩ : Fin 64) := by
    funext a; apply Fin.ext
    match a with
    | ⟨0, _⟩ => show win4_2.index t (0 : Fin 2) * 10000 + 1 * (j 0).val = t.val * 10000 + (j 0).val; omega
    | ⟨1, _⟩ => show win4_2.index t (1 : Fin 2) * 64 + 1 * (j 1).val = (j 1).val; omega
  rw [hemb]
  refine (congrArg (k4_pay1 (iblk4 V c 0 t) (iblk4 V c 1 t)) (eq_ix2 j)).trans ?_
  refine step_eq (V c main_v100) (V c main_arg11) (iblk4 V c 0 t) (iblk4 V c 1 t) t.val ht ?_ ?_ ⟨(j 0).val, hj0⟩ ⟨(j 1).val, hj1⟩
  · intro p k
    show V c main_v100 (((cfg4.win 0).blk t).view.emb (ix2 p k)) = _
    refine congrArg (V c main_v100) ?_
    funext a; apply Fin.ext
    match a with
    | ⟨0, _⟩ => show win4_0.index t (0 : Fin 2) * 10000 + 1 * p.val = t.val * 10000 + p.val; omega
    | ⟨1, _⟩ => show win4_0.index t (1 : Fin 2) * 32 + 1 * k.val = k.val; omega
  · intro k q
    show V c main_arg11 (((cfg4.win 1).blk t).view.emb (ix2 k q)) = _
    refine congrArg (V c main_arg11) ?_
    funext a; apply Fin.ext
    match a with
    | ⟨0, _⟩ => show win4_1.index t (0 : Fin 2) * 32 + 1 * k.val = k.val; omega
    | ⟨1, _⟩ => show win4_1.index t (1 : Fin 2) * 64 + 1 * q.val = q.val; omega

/-- A position of the result array is in step `t`'s block iff each coordinate is in the block's range on its axis. -/
theorem mem_blk (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v101).slice (win4_2.rect t)).set ↔ _
  rw [View.set_slice_whole, Rect.mem_set_unit]
  exact Iff.rfl

/-- The five row blocks tile the result: row `r` is in the block of step `r / 10000`, and every step writes back. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hlt : (i 0).val / 10000 < cfg4.N := by rw [show cfg4.N = 5 from N_4]; omega
  obtain ⟨e0, e1, e2, e3, e4, e5⟩ := idx_facts ⟨(i 0).val / 10000, hlt⟩
  refine ⟨⟨(i 0).val / 10000, hlt⟩, flush4_2 _, ?_⟩
  rw [mem_blk]
  intro a
  match a with
  | ⟨0, _⟩ =>
    show win4_2.index ⟨(i 0).val / 10000, hlt⟩ (0 : Fin 2) * 10000 ≤ (i 0).val ∧ (i 0).val < win4_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hlt⟩ (1 : Fin 2) * 64 ≤ (i 1).val ∧ (i 1).val < win4_2.index ⟨(i 0).val / 10000, hlt⟩ (1 : Fin 2) * 64 + 64
    omega

/-- THE RESULT ARRAY after the region: the whole product of the operand arrays as the region found them. -/
theorem value (c : Dev nD) : (dat4 V c).arrAt 2 cfg4.N = prod (V c main_v100) (V c main_arg11) :=
  (dat4 V c).arrAt_eq_of_cover 2 (prod (V c main_v100) (V c main_arg11)) (fun t _ => flushed_eq V c t) cover

end Cert.KernelIdeal.Region4
end
-- ==== Proof.Region5.lean ====
/-
  Matrix product 5 of the kernel program, as ONE function of its two operand arrays.

  The region multiplies a [50000, 64] array by a [64, 128] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 64
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region5

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 64] array with a [64, 128] array. -/
def prod (A : FVec Ideal S50000x64 .f32) (B : FVec Ideal S64x128 .f32) : FVec Ideal S50000x128 .f32 :=
  Host.dotGeneral Cert.ReferenceIdeal.dot_S50000x64_S64x128_S50000x128_1_0_0_1_n_n none A B

/-- Entry (r, q) of the whole product is Σ_k A[r, k] · B[k, q]: the operand positions of the host's contraction at
    output position (r, q) and contraction position k are (r, k) and (k, q). -/
theorem prod_apply (A : FVec Ideal S50000x64 .f32) (B : FVec Ideal S64x128 .f32) (r : Fin 50000) (q : Fin 128) :
    prod A B (ix2 r q) = ∑ k : Fin 64, A (ix2 r k) * B (ix2 k q) := by
  unfold prod
  simp only [Host.dotGeneral]
  rw [Ideal.dotGeneral_apply, ← Equiv.sum_comp (ValueIdx.contrEquiv1 Cert.ReferenceIdeal.dot_S50000x64_S64x128_S50000x128_1_0_0_1_n_n 64 rfl rfl).symm]
  refine Finset.sum_congr rfl fun k _ => ?_
  have hk := ValueIdx.contrEquiv1_symm_val Cert.ReferenceIdeal.dot_S50000x64_S64x128_S50000x128_1_0_0_1_n_n 64 rfl rfl k
  have el : (Cert.ReferenceIdeal.dot_S50000x64_S64x128_S50000x128_1_0_0_1_n_n).lhsIdx (ix2 r q) ((ValueIdx.contrEquiv1 Cert.ReferenceIdeal.dot_S50000x64_S64x128_S50000x128_1_0_0_1_n_n 64 rfl rfl).symm k) = ix2 r k := funext fun a => Fin.ext (by
    match a with
    | ⟨0, _⟩ => exact Cert.ReferenceIdeal.Read.lhs_main_v119_0 _ _
    | ⟨1, _⟩ => exact (Cert.ReferenceIdeal.Read.lhs_main_v119_1 _ _).trans hk)
  have er : (Cert.ReferenceIdeal.dot_S50000x64_S64x128_S50000x128_1_0_0_1_n_n).rhsIdx (ix2 r q) ((ValueIdx.contrEquiv1 Cert.ReferenceIdeal.dot_S50000x64_S64x128_S50000x128_1_0_0_1_n_n 64 rfl rfl).symm k) = ix2 k q := funext fun a => Fin.ext (by
    match a with
    | ⟨0, _⟩ => exact (Cert.ReferenceIdeal.Read.rhs_main_v119_0 _ _).trans hk
    | ⟨1, _⟩ => exact Cert.ReferenceIdeal.Read.rhs_main_v119_1 _ _)
  rw [el, er]

/-! The same four coordinate facts for one step's product over a block of 10000 rows. -/
theorem blk_lhs_0 (j : S10000x128.Idx) (κ : (dot_S10000x64_S64x128_S10000x128_1_0_0_1_n_n).contr.Idx) : ((dot_S10000x64_S64x128_S10000x128_1_0_0_1_n_n).lhsIdx j κ 0).val = (j 0).val := by
  unfold DotDims.lhsIdx
  rw [dif_neg (show ¬(0 : Fin S10000x64.rank) ∈ (dot_S10000x64_S64x128_S10000x128_1_0_0_1_n_n).lhsBatch by decide), dif_pos (show (0 : Fin S10000x64.rank) ∈ (dot_S10000x64_S64x128_S10000x128_1_0_0_1_n_n).lhsNonContracting by decide)]
  rfl
theorem blk_lhs_1 (j : S10000x128.Idx) (κ : (dot_S10000x64_S64x128_S10000x128_1_0_0_1_n_n).contr.Idx) : ((dot_S10000x64_S64x128_S10000x128_1_0_0_1_n_n).lhsIdx j κ 1).val = (κ ⟨0, by decide⟩).val :=
  (dot_S10000x64_S64x128_S10000x128_1_0_0_1_n_n).lhsIdx_val_of_single rfl j κ
theorem blk_rhs_0 (j : S10000x128.Idx) (κ : (dot_S10000x64_S64x128_S10000x128_1_0_0_1_n_n).contr.Idx) : ((dot_S10000x64_S64x128_S10000x128_1_0_0_1_n_n).rhsIdx j κ 0).val = (κ ⟨0, by decide⟩).val :=
  (dot_S10000x64_S64x128_S10000x128_1_0_0_1_n_n).rhsIdx_val_of_single rfl j κ
theorem blk_rhs_1 (j : S10000x128.Idx) (κ : (dot_S10000x64_S64x128_S10000x128_1_0_0_1_n_n).contr.Idx) : ((dot_S10000x64_S64x128_S10000x128_1_0_0_1_n_n).rhsIdx j κ 1).val = (j 1).val := by
  unfold DotDims.rhsIdx
  rw [dif_neg (show ¬(1 : Fin S64x128.rank) ∈ (dot_S10000x64_S64x128_S10000x128_1_0_0_1_n_n).rhsBatch by decide), dif_pos (show (1 : Fin S64x128.rank) ∈ (dot_S10000x64_S64x128_S10000x128_1_0_0_1_n_n).rhsNonContracting by decide)]
  rfl

/-- Entry (r, q) of one step's product — the value the body stores — is Σ_k x0[r, k] · x1[k, q] (the body first
    reshapes its left block to the block's own shape, which changes nothing). -/
theorem pay_apply (x0 : Vec Ideal S10000x64 .f32) (x1 : Vec Ideal S64x128 .f32) (r : Fin 10000) (q : Fin 128) :
    k5_pay1 (F := Ideal) x0 x1 (ix2 r q) = ∑ k : Fin 64, x0 (ix2 r k) * x1 (ix2 k q) := by
  unfold k5_pay1
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : (dot_S10000x64_S64x128_S10000x128_1_0_0_1_n_n).lhsIdx (ix2 r q) ((ValueIdx.contrEquiv1 dot_S10000x64_S64x128_S10000x128_1_0_0_1_n_n 64 rfl rfl).symm k) = ix2 r k := funext fun a => Fin.ext (by
    match a with
    | ⟨0, _⟩ => exact blk_lhs_0 _ _
    | ⟨1, _⟩ => exact (blk_lhs_1 _ _).trans hk)
  have er : (dot_S10000x64_S64x128_S10000x128_1_0_0_1_n_n).rhsIdx (ix2 r q) ((ValueIdx.contrEquiv1 dot_S10000x64_S64x128_S10000x128_1_0_0_1_n_n 64 rfl rfl).symm k) = ix2 k q := funext fun a => Fin.ext (by
    match a with
    | ⟨0, _⟩ => exact (blk_rhs_0 _ _).trans hk
    | ⟨1, _⟩ => exact blk_rhs_1 _ _)
  rw [el, er, shapeCast_self]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x64 .f32) (B : FVec Ideal S64x128 .f32) (x0 : Vec Ideal S10000x64 .f32) (x1 : Vec Ideal S64x128 .f32)
    (T : Nat) (hT : T < 5)
    (h0 : ∀ (p : Fin 10000) (k : Fin 64), x0 (ix2 p k) = A (ix2 (⟨T * 10000 + p.val, by have := p.isLt; omega⟩ : Fin 50000) k))
    (h1 : ∀ (k : Fin 64) (q : Fin 128), x1 (ix2 k q) = B (ix2 k q))
    (p : Fin 10000) (q : Fin 128) :
    k5_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt_five (t : Fin cfg5.N) : t.val < 5 := lt_of_lt_of_eq t.isLt N_5

/-- WHAT STEP `t` WRITES BACK is block `t` of the whole product of the operand arrays as the region finds them. -/
theorem flushed_eq (c : Dev nD) (t : Fin cfg5.N) :
    (dat5 V c).flushed 2 t = ((cfg5.win 2).blk t).view.read (Elt Ideal) (prod (V c main_v118) (V c main_arg13)) := by
  show (cfg5.win 2).cut (grid5.coords t) ((dat5 V c).after 2 t) = _
  rw [after5_2]
  unfold out5_2
  rw [View.canon_unit_zero hz]
  simp only [View.ld_unit_zero (S := S10000x64) hz, View.ld_unit_zero (S := S64x128) hz]
  obtain ⟨e0, e1, e2, e3, e4, e5⟩ := idx_facts t
  have ht := lt_five t
  funext j
  show k5_pay1 (iblk5 V c 0 t) (iblk5 V c 1 t) j = prod (V c main_v118) (V c main_arg13) (((cfg5.win 2).blk t).view.emb j)
  have hj0 : (j 0).val < 10000 := (j 0).isLt
  have hj1 : (j 1).val < 128 := (j 1).isLt
  have hemb : ((cfg5.win 2).blk t).view.emb j
      = ix2 (⟨t.val * 10000 + (j 0).val, by omega⟩ : Fin 50000) (⟨(j 1).val, hj1⟩ : Fin 128) := by
    funext a; apply Fin.ext
    match a with
    | ⟨0, _⟩ => show win5_2.index t (0 : Fin 2) * 10000 + 1 * (j 0).val = t.val * 10000 + (j 0).val; omega
    | ⟨1, _⟩ => show win5_2.index t (1 : Fin 2) * 128 + 1 * (j 1).val = (j 1).val; omega
  rw [hemb]
  refine (congrArg (k5_pay1 (iblk5 V c 0 t) (iblk5 V c 1 t)) (eq_ix2 j)).trans ?_
  refine step_eq (V c main_v118) (V c main_arg13) (iblk5 V c 0 t) (iblk5 V c 1 t) t.val ht ?_ ?_ ⟨(j 0).val, hj0⟩ ⟨(j 1).val, hj1⟩
  · intro p k
    show V c main_v118 (((cfg5.win 0).blk t).view.emb (ix2 p k)) = _
    refine congrArg (V c main_v118) ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * k.val = k.val; omega
  · intro k q
    show V c main_arg13 (((cfg5.win 1).blk t).view.emb (ix2 k q)) = _
    refine congrArg (V c main_arg13) ?_
    funext a; apply Fin.ext
    match a with
    | ⟨0, _⟩ => show win5_1.index t (0 : Fin 2) * 64 + 1 * k.val = k.val; omega
    | ⟨1, _⟩ => show win5_1.index t (1 : Fin 2) * 128 + 1 * q.val = q.val; omega

/-- A position of the result array is in step `t`'s block iff each coordinate is in the block's range on its axis. -/
theorem mem_blk (t : Fin cfg5.N) (i : S50000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v119).slice (win5_2.rect t)).set ↔ _
  rw [View.set_slice_whole, Rect.mem_set_unit]
  exact Iff.rfl

/-- The five row blocks tile the result: row `r` is in the block of step `r / 10000`, and every step writes back. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hlt : (i 0).val / 10000 < cfg5.N := by rw [show cfg5.N = 5 from N_5]; omega
  obtain ⟨e0, e1, e2, e3, e4, e5⟩ := idx_facts ⟨(i 0).val / 10000, hlt⟩
  refine ⟨⟨(i 0).val / 10000, hlt⟩, flush5_2 _, ?_⟩
  rw [mem_blk]
  intro a
  match a with
  | ⟨0, _⟩ =>
    show win5_2.index ⟨(i 0).val / 10000, hlt⟩ (0 : Fin 2) * 10000 ≤ (i 0).val ∧ (i 0).val < win5_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hlt⟩ (1 : Fin 2) * 128 ≤ (i 1).val ∧ (i 1).val < win5_2.index ⟨(i 0).val / 10000, hlt⟩ (1 : Fin 2) * 128 + 128
    omega

/-- THE RESULT ARRAY after the region: the whole product of the operand arrays as the region found them. -/
theorem value (c : Dev nD) : (dat5 V c).arrAt 2 cfg5.N = prod (V c main_v118) (V c main_arg13) :=
  (dat5 V c).arrAt_eq_of_cover 2 (prod (V c main_v118) (V c main_arg13)) (fun t _ => flushed_eq V c t) cover

end Cert.KernelIdeal.Region5
end
-- ==== Proof.Region6.lean ====
/-
  Matrix product 6 of the kernel program, as ONE function of its two operand arrays.

  The region multiplies a [50000, 128] array by a [128, 128] array in five steps: step `t` loads rows
  10000·t … 10000·t + 9999 of the left operand and the whole right operand, forms their product into a
  zero accumulator, and writes it back as rows 10000·t … 10000·t + 9999 of the result. At the ideal values a
  product into a zero accumulator is, entry by entry, the plain sum  Σ_k  a[r, k] · b[k, q]  over the 128
  contraction positions, and so is the whole-array product; a row of the result depends on that one row of the
  left operand only, so block `t` of the whole product is the product of block `t`. The five blocks tile the
  result, hence the result array ends holding the whole product of the operand arrays as the region found them.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region6

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

/-! ## The two products as sums over the contraction position -/

/-- The whole-array product: the host's contraction of a [50000, 128] array with a [128, 128] array. -/
def prod (A : FVec Ideal S50000x128 .f32) (B : FVec Ideal S128x128 .f32) : FVec Ideal S50000x128 .f32 :=
  Host.dotGeneral Cert.ReferenceIdeal.dot_S50000x128_S128x128_S50000x128_1_0_0_1_n_n none A B

/-- Entry (r, q) of the whole product is Σ_k A[r, k] · B[k, q]: the operand positions of the host's contraction at
    output position (r, q) and contraction position k are (r, k) and (k, q). -/
theorem prod_apply (A : FVec Ideal S50000x128 .f32) (B : FVec Ideal S128x128 .f32) (r : Fin 50000) (q : Fin 128) :
    prod A B (ix2 r q) = ∑ k : Fin 128, A (ix2 r k) * B (ix2 k q) := by
  unfold prod
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : (Cert.ReferenceIdeal.dot_S50000x128_S128x128_S50000x128_1_0_0_1_n_n).lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact Cert.ReferenceIdeal.Read.lhs_main_v137_0 _ _
    | ⟨1, _⟩ => exact (Cert.ReferenceIdeal.Read.lhs_main_v137_1 _ _).trans hk)
  have er : (Cert.ReferenceIdeal.dot_S50000x128_S128x128_S50000x128_1_0_0_1_n_n).rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (Cert.ReferenceIdeal.Read.rhs_main_v137_0 _ _).trans hk
    | ⟨1, _⟩ => exact Cert.ReferenceIdeal.Read.rhs_main_v137_1 _ _)
  rw [el, er]

/-! The same four coordinate facts for one step's product over a block of 10000 rows. -/
theorem blk_lhs_0 (j : S10000x128.Idx) (κ : (dot_S10000x128_S128x128_S10000x128_1_0_0_1_n_n).contr.Idx) : ((dot_S10000x128_S128x128_S10000x128_1_0_0_1_n_n).lhsIdx j κ 0).val = (j 0).val := by
  unfold DotDims.lhsIdx
  rw [dif_neg (show ¬(0 : Fin S10000x128.rank) ∈ (dot_S10000x128_S128x128_S10000x128_1_0_0_1_n_n).lhsBatch by decide), dif_pos (show (0 : Fin S10000x128.rank) ∈ (dot_S10000x128_S128x128_S10000x128_1_0_0_1_n_n).lhsNonContracting by decide)]
  rfl
theorem blk_lhs_1 (j : S10000x128.Idx) (κ : (dot_S10000x128_S128x128_S10000x128_1_0_0_1_n_n).contr.Idx) : ((dot_S10000x128_S128x128_S10000x128_1_0_0_1_n_n).lhsIdx j κ 1).val = (κ ⟨0, by decide⟩).val :=
  (dot_S10000x128_S128x128_S10000x128_1_0_0_1_n_n).lhsIdx_val_of_single rfl j κ
theorem blk_rhs_0 (j : S10000x128.Idx) (κ : (dot_S10000x128_S128x128_S10000x128_1_0_0_1_n_n).contr.Idx) : ((dot_S10000x128_S128x128_S10000x128_1_0_0_1_n_n).rhsIdx j κ 0).val = (κ ⟨0, by decide⟩).val :=
  (dot_S10000x128_S128x128_S10000x128_1_0_0_1_n_n).rhsIdx_val_of_single rfl j κ
theorem blk_rhs_1 (j : S10000x128.Idx) (κ : (dot_S10000x128_S128x128_S10000x128_1_0_0_1_n_n).contr.Idx) : ((dot_S10000x128_S128x128_S10000x128_1_0_0_1_n_n).rhsIdx j κ 1).val = (j 1).val := by
  unfold DotDims.rhsIdx
  rw [dif_neg (show ¬(1 : Fin S128x128.rank) ∈ (dot_S10000x128_S128x128_S10000x128_1_0_0_1_n_n).rhsBatch by decide), dif_pos (show (1 : Fin S128x128.rank) ∈ (dot_S10000x128_S128x128_S10000x128_1_0_0_1_n_n).rhsNonContracting by decide)]
  rfl

/-- Entry (r, q) of one step's product — the value the body stores — is Σ_k x0[r, k] · x1[k, q] (the body first
    reshapes its left block to the block's own shape, which changes nothing). -/
theorem pay_apply (x0 : Vec Ideal S10000x128 .f32) (x1 : Vec Ideal S128x128 .f32) (r : Fin 10000) (q : Fin 128) :
    k6_pay1 (F := Ideal) x0 x1 (ix2 r q) = ∑ k : Fin 128, x0 (ix2 r k) * x1 (ix2 k q) := by
  unfold k6_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : (dot_S10000x128_S128x128_S10000x128_1_0_0_1_n_n).lhsIdx (ix2 r q) ((ValueIdx.contrEquiv1 dot_S10000x128_S128x128_S10000x128_1_0_0_1_n_n 128 rfl rfl).symm k) = ix2 r k := funext fun a => Fin.ext (by
    match a with
    | ⟨0, _⟩ => exact blk_lhs_0 _ _
    | ⟨1, _⟩ => exact (blk_lhs_1 _ _).trans hk)
  have er : (dot_S10000x128_S128x128_S10000x128_1_0_0_1_n_n).rhsIdx (ix2 r q) ((ValueIdx.contrEquiv1 dot_S10000x128_S128x128_S10000x128_1_0_0_1_n_n 128 rfl rfl).symm k) = ix2 k q := funext fun a => Fin.ext (by
    match a with
    | ⟨0, _⟩ => exact (blk_rhs_0 _ _).trans hk
    | ⟨1, _⟩ => exact blk_rhs_1 _ _)
  rw [el, er, shapeCast_self]

/-! ## One step: the block's product is the block of the whole product -/

/-- If a step's left block is rows 10000·T … of `A` and its right block is all of `B`, then entry (p, q) of the step's
    product is entry (10000·T + p, q) of the whole product: the two sums have the same terms. -/
theorem step_eq (A : FVec Ideal S50000x128 .f32) (B : FVec Ideal S128x128 .f32) (x0 : Vec Ideal S10000x128 .f32) (x1 : Vec Ideal S128x128 .f32)
    (T : Nat) (hT : T < 5)
    (h0 : ∀ (p : Fin 10000) (k : Fin 128), x0 (ix2 p k) = A (ix2 (⟨T * 10000 + p.val, by have := p.isLt; omega⟩ : Fin 50000) k))
    (h1 : ∀ (k : Fin 128) (q : Fin 128), x1 (ix2 k q) = B (ix2 k q))
    (p : Fin 10000) (q : Fin 128) :
    k6_pay1 (F := Ideal) x0 x1 (ix2 p q) = prod A B (ix2 (⟨T * 10000 + p.val, by have := p.isLt; omega⟩ : Fin 50000) q) := by
  rw [pay_apply, prod_apply]
  exact Finset.sum_congr rfl fun k _ => by rw [h0, h1]

/-! ## The blocks over the grid -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five steps: at step `t` the left operand's block and the result's block are row
    block `t` (column block 0), and the right operand's block is block (0, 0), the whole array. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem lt_five (t : Fin cfg6.N) : t.val < 5 := lt_of_lt_of_eq t.isLt N_6

/-- WHAT STEP `t` WRITES BACK is block `t` of the whole product of the operand arrays as the region finds them. -/
theorem flushed_eq (c : Dev nD) (t : Fin cfg6.N) :
    (dat6 V c).flushed 2 t = ((cfg6.win 2).blk t).view.read (Elt Ideal) (prod (V c main_v136) (V c main_arg15)) := by
  show (cfg6.win 2).cut (grid6.coords t) ((dat6 V c).after 2 t) = _
  rw [after6_2]
  unfold out6_2
  rw [View.canon_unit_zero hz]
  simp only [View.ld_unit_zero (S := S10000x128) hz, View.ld_unit_zero (S := S128x128) hz]
  obtain ⟨e0, e1, e2, e3, e4, e5⟩ := idx_facts t
  have ht := lt_five t
  funext j
  show k6_pay1 (iblk6 V c 0 t) (iblk6 V c 1 t) j = prod (V c main_v136) (V c main_arg15) (((cfg6.win 2).blk t).view.emb j)
  have hj0 : (j 0).val < 10000 := (j 0).isLt
  have hj1 : (j 1).val < 128 := (j 1).isLt
  have hemb : ((cfg6.win 2).blk t).view.emb j
      = ix2 (⟨t.val * 10000 + (j 0).val, by omega⟩ : Fin 50000) (⟨(j 1).val, hj1⟩ : Fin 128) := by
    funext a; apply Fin.ext
    match a with
    | ⟨0, _⟩ => show win6_2.index t (0 : Fin 2) * 10000 + 1 * (j 0).val = t.val * 10000 + (j 0).val; omega
    | ⟨1, _⟩ => show win6_2.index t (1 : Fin 2) * 128 + 1 * (j 1).val = (j 1).val; omega
  rw [hemb]
  refine (congrArg (k6_pay1 (iblk6 V c 0 t) (iblk6 V c 1 t)) (eq_ix2 j)).trans ?_
  refine step_eq (V c main_v136) (V c main_arg15) (iblk6 V c 0 t) (iblk6 V c 1 t) t.val ht ?_ ?_ ⟨(j 0).val, hj0⟩ ⟨(j 1).val, hj1⟩
  · intro p k
    show V c main_v136 (((cfg6.win 0).blk t).view.emb (ix2 p k)) = _
    refine congrArg (V c main_v136) ?_
    funext a; apply Fin.ext
    match a with
    | ⟨0, _⟩ => show win6_0.index t (0 : Fin 2) * 10000 + 1 * p.val = t.val * 10000 + p.val; omega
    | ⟨1, _⟩ => show win6_0.index t (1 : Fin 2) * 128 + 1 * k.val = k.val; omega
  · intro k q
    show V c main_arg15 (((cfg6.win 1).blk t).view.emb (ix2 k q)) = _
    refine congrArg (V c main_arg15) ?_
    funext a; apply Fin.ext
    match a with
    | ⟨0, _⟩ => show win6_1.index t (0 : Fin 2) * 128 + 1 * k.val = k.val; omega
    | ⟨1, _⟩ => show win6_1.index t (1 : Fin 2) * 128 + 1 * q.val = q.val; omega

/-- A position of the result array is in step `t`'s block iff each coordinate is in the block's range on its axis. -/
theorem mem_blk (t : Fin cfg6.N) (i : S50000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v137).slice (win6_2.rect t)).set ↔ _
  rw [View.set_slice_whole, Rect.mem_set_unit]
  exact Iff.rfl

/-- The five row blocks tile the result: row `r` is in the block of step `r / 10000`, and every step writes back. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hlt : (i 0).val / 10000 < cfg6.N := by rw [show cfg6.N = 5 from N_6]; omega
  obtain ⟨e0, e1, e2, e3, e4, e5⟩ := idx_facts ⟨(i 0).val / 10000, hlt⟩
  refine ⟨⟨(i 0).val / 10000, hlt⟩, flush6_2 _, ?_⟩
  rw [mem_blk]
  intro a
  match a with
  | ⟨0, _⟩ =>
    show win6_2.index ⟨(i 0).val / 10000, hlt⟩ (0 : Fin 2) * 10000 ≤ (i 0).val ∧ (i 0).val < win6_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, hlt⟩ (1 : Fin 2) * 128 ≤ (i 1).val ∧ (i 1).val < win6_2.index ⟨(i 0).val / 10000, hlt⟩ (1 : Fin 2) * 128 + 128
    omega

/-- THE RESULT ARRAY after the region: the whole product of the operand arrays as the region found them. -/
theorem value (c : Dev nD) : (dat6 V c).arrAt 2 cfg6.N = prod (V c main_v136) (V c main_arg15) :=
  (dat6 V c).arrAt_eq_of_cover 2 (prod (V c main_v136) (V c main_arg15)) (fun t _ => flushed_eq V c t) cover

end Cert.KernelIdeal.Region6
end
-- ==== Proof.Stage0.lean ====
/-
  The first stretch of host operations: from the edge list it forms the source and destination lists with one
  self-loop per node appended, the in-degree of every node (a scatter-add of ones along the destinations), its
  inverse square root, and for every edge the product of that quantity at its source and at its destination —
  the edge's norm. Every later stretch reads these three buffers.
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage0

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem src (x1 : (⟨Cert.ReferenceIdeal.S2x800000, .i32⟩ : BufTy).Contents (Elt F)) (h1 : V (Proc.devRef .tc main_arg1) = x1) :
    StableHlo.after hostOps0 V (Proc.devRef .tc main_v3) = val_main_v3 (F := F) x1 := by
  simp only [hostOps0]
  after_results
  rw [h1]
  rfl

set_option maxHeartbeats 2000000 in
theorem dst (x1 : (⟨Cert.ReferenceIdeal.S2x800000, .i32⟩ : BufTy).Contents (Elt F)) (h1 : V (Proc.devRef .tc main_arg1) = x1) :
    StableHlo.after hostOps0 V (Proc.devRef .tc main_v6) = val_main_v6 (F := F) x1 := by
  simp only [hostOps0]
  after_results
  rw [h1]
  rfl

set_option maxHeartbeats 4000000 in
theorem norm (x1 : (⟨Cert.ReferenceIdeal.S2x800000, .i32⟩ : BufTy).Contents (Elt F)) (h1 : V (Proc.devRef .tc main_arg1) = x1) :
    StableHlo.after hostOps0 V (Proc.devRef .tc main_v26) = val_main_v26 (F := F) x1 := by
  simp only [hostOps0]
  after_results
  rw [h1]
  rfl

end Cert.KernelIdeal.Stage0
end
-- ==== Proof.Stage1.lean ====
/-
  The stretch after the first product.
  The stretch gathers the product's rows along the self-looped source list, scales each row by its edge's
  norm, adds the rows up by destination, and adds the bias, then takes the maximum with zero (the inlined rectifier).
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage1

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F))
    (hp : V (Proc.devRef .tc main_v27) = val_main_v27 (F := F) x0 x3) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg4) = x4) :
    StableHlo.after hostOps1 V (Proc.devRef .tc main_v43) = val_main_v43 (F := F) x0 x1 x3 x4 := by
  simp only [hostOps1]
  after_results
  rw [hp, h3, h6, h26, hb]
  rfl

set_option maxHeartbeats 2000000 in
theorem relu (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (hin : V (Proc.devRef .tc main_v43) = val_main_v43 (F := F) x0 x1 x3 x4) :
    StableHlo.after hostOps1_1 V (Proc.devRef .tc main_v44) = val_main_v44 (F := F) x0 x1 x3 x4 := by
  simp only [hostOps1_1]
  after_results
  rw [hin]
  rfl

end Cert.KernelIdeal.Stage1
end
-- ==== Proof.Stage2.lean ====
/-
  The stretch after the second product.
  The stretch gathers the product's rows along the self-looped source list, scales each row by its edge's
  norm, adds the rows up by destination, and adds the bias.
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage2

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F))
    (hp : V (Proc.devRef .tc main_v45) = val_main_v45 (F := F) x0 x1 x3 x4 x5) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg6) = x6) :
    StableHlo.after hostOps2 V (Proc.devRef .tc main_v61) = val_main_v61 (F := F) x0 x1 x3 x4 x5 x6 := by
  simp only [hostOps2]
  after_results
  rw [hp, h3, h6, h26, hb]
  rfl

end Cert.KernelIdeal.Stage2
end
-- ==== Proof.Stage3.lean ====
/-
  The stretch after the third product: it gives the mean, a result of the program.
  The stretch gathers the product's rows along the self-looped source list, scales each row by its edge's
  norm, adds the rows up by destination, and adds the bias.
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage3

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F))
    (hp : V (Proc.devRef .tc main_v62) = val_main_v62 (F := F) x0 x1 x3 x4 x5 x6 x7) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg8) = x8) :
    StableHlo.after hostOps3 V (Proc.devRef .tc main_v78) = val_main_v78 (F := F) x0 x1 x3 x4 x5 x6 x7 x8 := by
  simp only [hostOps3]
  after_results
  rw [hp, h3, h6, h26, hb]
  rfl

end Cert.KernelIdeal.Stage3
end
-- ==== Proof.Stage4.lean ====
/-
  The stretch after the fourth product: it gives the log-variance, a result of the program, and then the
  sample  mean + eps · exp(logvar / 2)  that the decoder starts from.
  The stretch gathers the product's rows along the self-looped source list, scales each row by its edge's
  norm, adds the rows up by destination, and adds the bias (the log-variance); the sample reads the mean and the noise argument as well.
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage4

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x9 : (⟨Cert.ReferenceIdeal.S64x32, .f32⟩ : BufTy).Contents (Elt F)) (x10 : (⟨Cert.ReferenceIdeal.S32, .f32⟩ : BufTy).Contents (Elt F))
    (hp : V (Proc.devRef .tc main_v79) = val_main_v79 (F := F) x0 x1 x3 x4 x5 x6 x9) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg10) = x10) :
    StableHlo.after hostOps4 V (Proc.devRef .tc main_v95) = val_main_v95 (F := F) x0 x1 x3 x4 x5 x6 x9 x10 := by
  simp only [hostOps4]
  after_results
  rw [hp, h3, h6, h26, hb]
  rfl

set_option maxHeartbeats 2000000 in
theorem sample (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000x32, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F)) (x9 : (⟨Cert.ReferenceIdeal.S64x32, .f32⟩ : BufTy).Contents (Elt F)) (x10 : (⟨Cert.ReferenceIdeal.S32, .f32⟩ : BufTy).Contents (Elt F))
    (hp : V (Proc.devRef .tc main_v79) = val_main_v79 (F := F) x0 x1 x3 x4 x5 x6 x9) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg10) = x10)
    (hmu : V (Proc.devRef .tc main_v78) = val_main_v78 (F := F) x0 x1 x3 x4 x5 x6 x7 x8) (he : V (Proc.devRef .tc main_arg2) = x2) :
    StableHlo.after hostOps4 V (Proc.devRef .tc main_v100) = val_main_v100 (F := F) x0 x1 x2 x3 x4 x5 x6 x7 x8 x9 x10 := by
  simp only [hostOps4]
  after_results
  rw [hp, h3, h6, h26, hb, hmu, he]
  rfl

end Cert.KernelIdeal.Stage4
end
-- ==== Proof.Stage5.lean ====
/-
  The stretch after the fifth product.
  The stretch gathers the product's rows along the self-looped source list, scales each row by its edge's
  norm, adds the rows up by destination, and adds the bias, then takes the maximum with zero (the inlined rectifier).
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage5

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000x32, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F)) (x9 : (⟨Cert.ReferenceIdeal.S64x32, .f32⟩ : BufTy).Contents (Elt F)) (x10 : (⟨Cert.ReferenceIdeal.S32, .f32⟩ : BufTy).Contents (Elt F)) (x11 : (⟨Cert.ReferenceIdeal.S32x64, .f32⟩ : BufTy).Contents (Elt F)) (x12 : (⟨Cert.ReferenceIdeal.S64, .f32⟩ : BufTy).Contents (Elt F))
    (hp : V (Proc.devRef .tc main_v101) = val_main_v101 (F := F) x0 x1 x2 x3 x4 x5 x6 x7 x8 x9 x10 x11) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg12) = x12) :
    StableHlo.after hostOps5 V (Proc.devRef .tc main_v117) = val_main_v117 (F := F) x0 x1 x2 x3 x4 x5 x6 x7 x8 x9 x10 x11 x12 := by
  simp only [hostOps5]
  after_results
  rw [hp, h3, h6, h26, hb]
  rfl

set_option maxHeartbeats 2000000 in
theorem relu (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000x32, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F)) (x9 : (⟨Cert.ReferenceIdeal.S64x32, .f32⟩ : BufTy).Contents (Elt F)) (x10 : (⟨Cert.ReferenceIdeal.S32, .f32⟩ : BufTy).Contents (Elt F)) (x11 : (⟨Cert.ReferenceIdeal.S32x64, .f32⟩ : BufTy).Contents (Elt F)) (x12 : (⟨Cert.ReferenceIdeal.S64, .f32⟩ : BufTy).Contents (Elt F)) (hin : V (Proc.devRef .tc main_v117) = val_main_v117 (F := F) x0 x1 x2 x3 x4 x5 x6 x7 x8 x9 x10 x11 x12) :
    StableHlo.after hostOps5_1 V (Proc.devRef .tc main_v118) = val_main_v118 (F := F) x0 x1 x2 x3 x4 x5 x6 x7 x8 x9 x10 x11 x12 := by
  simp only [hostOps5_1]
  after_results
  rw [hin]
  rfl

end Cert.KernelIdeal.Stage5
end
-- ==== Proof.Stage6.lean ====
/-
  The stretch after the sixth product.
  The stretch gathers the product's rows along the self-looped source list, scales each row by its edge's
  norm, adds the rows up by destination, and adds the bias, then takes the maximum with zero (the inlined rectifier).
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage6

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000x32, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F)) (x9 : (⟨Cert.ReferenceIdeal.S64x32, .f32⟩ : BufTy).Contents (Elt F)) (x10 : (⟨Cert.ReferenceIdeal.S32, .f32⟩ : BufTy).Contents (Elt F)) (x11 : (⟨Cert.ReferenceIdeal.S32x64, .f32⟩ : BufTy).Contents (Elt F)) (x12 : (⟨Cert.ReferenceIdeal.S64, .f32⟩ : BufTy).Contents (Elt F)) (x13 : (⟨Cert.ReferenceIdeal.S64x128, .f32⟩ : BufTy).Contents (Elt F)) (x14 : (⟨Cert.ReferenceIdeal.S128, .f32⟩ : BufTy).Contents (Elt F))
    (hp : V (Proc.devRef .tc main_v119) = val_main_v119 (F := F) x0 x1 x2 x3 x4 x5 x6 x7 x8 x9 x10 x11 x12 x13) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg14) = x14) :
    StableHlo.after hostOps6 V (Proc.devRef .tc main_v135) = val_main_v135 (F := F) x0 x1 x2 x3 x4 x5 x6 x7 x8 x9 x10 x11 x12 x13 x14 := by
  simp only [hostOps6]
  after_results
  rw [hp, h3, h6, h26, hb]
  rfl

set_option maxHeartbeats 2000000 in
theorem relu (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000x32, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F)) (x9 : (⟨Cert.ReferenceIdeal.S64x32, .f32⟩ : BufTy).Contents (Elt F)) (x10 : (⟨Cert.ReferenceIdeal.S32, .f32⟩ : BufTy).Contents (Elt F)) (x11 : (⟨Cert.ReferenceIdeal.S32x64, .f32⟩ : BufTy).Contents (Elt F)) (x12 : (⟨Cert.ReferenceIdeal.S64, .f32⟩ : BufTy).Contents (Elt F)) (x13 : (⟨Cert.ReferenceIdeal.S64x128, .f32⟩ : BufTy).Contents (Elt F)) (x14 : (⟨Cert.ReferenceIdeal.S128, .f32⟩ : BufTy).Contents (Elt F)) (hin : V (Proc.devRef .tc main_v135) = val_main_v135 (F := F) x0 x1 x2 x3 x4 x5 x6 x7 x8 x9 x10 x11 x12 x13 x14) :
    StableHlo.after hostOps6_1 V (Proc.devRef .tc main_v136) = val_main_v136 (F := F) x0 x1 x2 x3 x4 x5 x6 x7 x8 x9 x10 x11 x12 x13 x14 := by
  simp only [hostOps6_1]
  after_results
  rw [hin]
  rfl

end Cert.KernelIdeal.Stage6
end
-- ==== Proof.Stage7.lean ====
/-
  The last stretch, after the seventh product: it gives the reconstruction, a result of the program.
  The stretch gathers the product's rows along the self-looped source list, scales each row by its edge's
  norm, adds the rows up by destination, and adds the bias.
  The statement is about the stretch alone, from ANY contents `V` of the core's buffers in which the buffers
  the stretch reads hold the reference program's values of the arguments `x0, x1, …`: then each buffer named
  below holds the reference's value too. Both programs apply the same host operations here, so once the
  operations are evaluated at the buffer and the hypotheses are used the two terms coincide. Stated at any
  float instance: nothing in it is arithmetic.
-/
import proofs.«107225_j8890582302924_1_alg».proof.Defs
import proofs.«107225_j8890582302924_1_alg».proof.Proof.Gen.KernelIdeal.Frame
import proofs.«107225_j8890582302924_1_alg».proof.Proof.Gen.ReferenceIdeal.Read
import Idealize.ShloMosaic.Lib.StableHlo.Run

set_option maxRecDepth 16384

noncomputable section

namespace Cert.KernelIdeal.Stage7

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 2000000 in
theorem agg (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000x32, .f32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x32, .f32⟩ : BufTy).Contents (Elt F)) (x8 : (⟨Cert.ReferenceIdeal.S32, .f32⟩ : BufTy).Contents (Elt F)) (x9 : (⟨Cert.ReferenceIdeal.S64x32, .f32⟩ : BufTy).Contents (Elt F)) (x10 : (⟨Cert.ReferenceIdeal.S32, .f32⟩ : BufTy).Contents (Elt F)) (x11 : (⟨Cert.ReferenceIdeal.S32x64, .f32⟩ : BufTy).Contents (Elt F)) (x12 : (⟨Cert.ReferenceIdeal.S64, .f32⟩ : BufTy).Contents (Elt F)) (x13 : (⟨Cert.ReferenceIdeal.S64x128, .f32⟩ : BufTy).Contents (Elt F)) (x14 : (⟨Cert.ReferenceIdeal.S128, .f32⟩ : BufTy).Contents (Elt F)) (x15 : (⟨Cert.ReferenceIdeal.S128x128, .f32⟩ : BufTy).Contents (Elt F)) (x16 : (⟨Cert.ReferenceIdeal.S128, .f32⟩ : BufTy).Contents (Elt F))
    (hp : V (Proc.devRef .tc main_v137) = val_main_v137 (F := F) x0 x1 x2 x3 x4 x5 x6 x7 x8 x9 x10 x11 x12 x13 x14 x15) (h3 : V (Proc.devRef .tc main_v3) = val_main_v3 (F := F) x1) (h6 : V (Proc.devRef .tc main_v6) = val_main_v6 (F := F) x1)
    (h26 : V (Proc.devRef .tc main_v26) = val_main_v26 (F := F) x1)
    (hb : V (Proc.devRef .tc main_arg16) = x16) :
    StableHlo.after hostOps7 V (Proc.devRef .tc main_v153) = val_main_v153 (F := F) x0 x1 x2 x3 x4 x5 x6 x7 x8 x9 x10 x11 x12 x13 x14 x15 x16 := by
  simp only [hostOps7]
  after_results
  rw [hp, h3, h6, h26, hb]
  rfl

end Cert.KernelIdeal.Stage7
end
-- ==== Proof.Fold.lean ====
/-
  The kernel program's fold, stage by stage, lands on the reference program's values.

  The contents of a core's buffers at the eighteen segment boundaries of the kernel program are a fold from the
  launch memory (`Gen.W0 … Gen.W18`). Read at the buffers that matter, every stage of the fold is the reference
  program's value of the arguments: the first stretch makes the self-looped edge lists and the edge norms; each
  region leaves the whole product of its two operand arrays (the region's own module), which is the reference's
  host contraction of the same two values; each later stretch turns a product into the next layer's activations
  (the stretch's own module); and a buffer that a segment does not write keeps what it held, which carries the
  edge lists, the norms, the arguments, the second layer's output (read by two products), the mean and the
  log-variance along the fold. So the three result buffers end at the reference's three results.
-/
import proofs.«107225_j8890582302924_1_alg».proof.Defs
import proofs.«107225_j8890582302924_1_alg».proof.Proof.Gen.KernelIdeal.Frame
import proofs.«107225_j8890582302924_1_alg».proof.Proof.Gen.ReferenceIdeal.Read
import proofs.«107225_j8890582302924_1_alg».proof.Proof.Region0
import proofs.«107225_j8890582302924_1_alg».proof.Proof.Region1
import proofs.«107225_j8890582302924_1_alg».proof.Proof.Region2
import proofs.«107225_j8890582302924_1_alg».proof.Proof.Region3
import proofs.«107225_j8890582302924_1_alg».proof.Proof.Region4
import proofs.«107225_j8890582302924_1_alg».proof.Proof.Region5
import proofs.«107225_j8890582302924_1_alg».proof.Proof.Region6
import proofs.«107225_j8890582302924_1_alg».proof.Proof.Stage0
import proofs.«107225_j8890582302924_1_alg».proof.Proof.Stage1
import proofs.«107225_j8890582302924_1_alg».proof.Proof.Stage2
import proofs.«107225_j8890582302924_1_alg».proof.Proof.Stage3
import proofs.«107225_j8890582302924_1_alg».proof.Proof.Stage4
import proofs.«107225_j8890582302924_1_alg».proof.Proof.Stage5
import proofs.«107225_j8890582302924_1_alg».proof.Proof.Stage6
import proofs.«107225_j8890582302924_1_alg».proof.Proof.Stage7
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.Read

/-- One step back along the fold for a buffer the step leaves alone: a region the buffer is not an array of, or a
    stretch of host operations none of which writes the buffer. -/
macro "hop" : tactic => `(tactic| first
  | (rw [W17_of_ne]; rotate_left; decide)
  | (rw [W14_of_ne]; rotate_left; decide)
  | (rw [W11_of_ne]; rotate_left; decide)
  | (rw [W9_of_ne]; rotate_left; decide)
  | (rw [W7_of_ne]; rotate_left; decide)
  | (rw [W5_of_ne]; rotate_left; decide)
  | (rw [W2_of_ne]; rotate_left; decide)
  | (rw [StableHlo.after_of_forall_not_mem]; rotate_left
     · refine List.forall_iff_forall_mem.mp ?_
       simp only [hostOps0, hostOps1, hostOps1_1, hostOps2, hostOps3, hostOps4, hostOps5, hostOps5_1, hostOps6, hostOps6_1, hostOps7, List.Forall, StableHlo.nullary_writes, StableHlo.unary_writes, StableHlo.binary_writes,
         StableHlo.ternary_writes, StableHlo.quaternary_writes, StableHlo.reshape_writes, StableHlo.binaryIndexed_writes, Finset.mem_singleton]
       repeat' apply And.intro
       all_goals (apply StableHlo.devRef_ne_of_ne; decide)))

/-- Back along the fold as far as the buffer is left alone. -/
macro "walk" : tactic => `(tactic| repeat (first | hop | dsimp only [W18, W16, W15, W13, W12, W10, W8, W6, W4, W3, W1]))

variable (m : (ℓ : Loc nD τ sig) → Buf (Elt Ideal) ℓ) (ρ : Dev nD → PrngReg) (c : Dev nD)

/-! ## The arguments, where a segment reads them: nothing writes an argument -/

theorem W1_arg0 : W1 m ρ c (Proc.devRef .tc main_arg0) = (m ((c.tc : Thread nD τ).loc main_arg0)) := by walk
theorem W1_arg3 : W1 m ρ c (Proc.devRef .tc main_arg3) = (m ((c.tc : Thread nD τ).loc main_arg3)) := by walk
theorem W2_arg4 : W2 m ρ c (Proc.devRef .tc main_arg4) = (m ((c.tc : Thread nD τ).loc main_arg4)) := by walk
theorem W4_arg5 : W4 m ρ c (Proc.devRef .tc main_arg5) = (m ((c.tc : Thread nD τ).loc main_arg5)) := by walk
theorem W5_arg6 : W5 m ρ c (Proc.devRef .tc main_arg6) = (m ((c.tc : Thread nD τ).loc main_arg6)) := by walk
theorem W6_arg7 : W6 m ρ c (Proc.devRef .tc main_arg7) = (m ((c.tc : Thread nD τ).loc main_arg7)) := by walk
theorem W7_arg8 : W7 m ρ c (Proc.devRef .tc main_arg8) = (m ((c.tc : Thread nD τ).loc main_arg8)) := by walk
theorem W8_arg9 : W8 m ρ c (Proc.devRef .tc main_arg9) = (m ((c.tc : Thread nD τ).loc main_arg9)) := by walk
theorem W9_arg10 : W9 m ρ c (Proc.devRef .tc main_arg10) = (m ((c.tc : Thread nD τ).loc main_arg10)) := by walk
theorem W9_arg2 : W9 m ρ c (Proc.devRef .tc main_arg2) = (m ((c.tc : Thread nD τ).loc main_arg2)) := by walk
theorem W10_arg11 : W10 m ρ c (Proc.devRef .tc main_arg11) = (m ((c.tc : Thread nD τ).loc main_arg11)) := by walk
theorem W11_arg12 : W11 m ρ c (Proc.devRef .tc main_arg12) = (m ((c.tc : Thread nD τ).loc main_arg12)) := by walk
theorem W13_arg13 : W13 m ρ c (Proc.devRef .tc main_arg13) = (m ((c.tc : Thread nD τ).loc main_arg13)) := by walk
theorem W14_arg14 : W14 m ρ c (Proc.devRef .tc main_arg14) = (m ((c.tc : Thread nD τ).loc main_arg14)) := by walk
theorem W16_arg15 : W16 m ρ c (Proc.devRef .tc main_arg15) = (m ((c.tc : Thread nD τ).loc main_arg15)) := by walk
theorem W17_arg16 : W17 m ρ c (Proc.devRef .tc main_arg16) = (m ((c.tc : Thread nD τ).loc main_arg16)) := by walk

/-! ## The edge lists and the edge norms: made by the first stretch, kept by every later segment -/

theorem W1_v3 : W1 m ρ c (Proc.devRef .tc main_v3) = val_main_v3 (F := Ideal) (m ((c.tc : Thread nD τ).loc main_arg1)) := Stage0.src (W0 m ρ c) (m ((c.tc : Thread nD τ).loc main_arg1)) rfl
theorem W1_v6 : W1 m ρ c (Proc.devRef .tc main_v6) = val_main_v6 (F := Ideal) (m ((c.tc : Thread nD τ).loc main_arg1)) := Stage0.dst (W0 m ρ c) (m ((c.tc : Thread nD τ).loc main_arg1)) rfl
theorem W1_v26 : W1 m ρ c (Proc.devRef .tc main_v26) = val_main_v26 (F := Ideal) (m ((c.tc : Thread nD τ).loc main_arg1)) := Stage0.norm (W0 m ρ c) (m ((c.tc : Thread nD τ).loc main_arg1)) rfl

theorem W2_v3 : W2 m ρ c (Proc.devRef .tc main_v3) = val_main_v3 (F := Ideal) (m ((c.tc : Thread nD τ).loc main_arg1)) := by walk; exact W1_v3 m ρ c
theorem W2_v6 : W2 m ρ c (Proc.devRef .tc main_v6) = val_main_v6 (F := Ideal) (m ((c.tc : Thread nD τ).loc main_arg1)) := by walk; exact W1_v6 m ρ c
theorem W2_v26 : W2 m ρ c (Proc.devRef .tc main_v26) = val_main_v26 (F := Ideal) (m ((c.tc : Thread nD τ).loc main_arg1)) := by walk; exact W1_v26 m ρ c

theorem W5_v3 : W5 m ρ c (Proc.devRef .tc main_v3) = val_main_v3 (F := Ideal) (m ((c.tc : Thread nD τ).loc main_arg1)) := by walk; exact W1_v3 m ρ c
theorem W5_v6 : W5 m ρ c (Proc.devRef .tc main_v6) = val_main_v6 (F := Ideal) (m ((c.tc : Thread nD τ).loc main_arg1)) := by walk; exact W1_v6 m ρ c
theorem W5_v26 : W5 m ρ c (Proc.devRef .tc main_v26) = val_main_v26 (F := Ideal) (m ((c.tc : Thread nD τ).loc main_arg1)) := by walk; exact W1_v26 m ρ c

theorem W7_v3 : W7 m ρ c (Proc.devRef .tc main_v3) = val_main_v3 (F := Ideal) (m ((c.tc : Thread nD τ).loc main_arg1)) := by walk; exact W1_v3 m ρ c
theorem W7_v6 : W7 m ρ c (Proc.devRef .tc main_v6) = val_main_v6 (F := Ideal) (m ((c.tc : Thread nD τ).loc main_arg1)) := by walk; exact W1_v6 m ρ c
theorem W7_v26 : W7 m ρ c (Proc.devRef .tc main_v26) = val_main_v26 (F := Ideal) (m ((c.tc : Thread nD τ).loc main_arg1)) := by walk; exact W1_v26 m ρ c

theorem W9_v3 : W9 m ρ c (Proc.devRef .tc main_v3) = val_main_v3 (F := Ideal) (m ((c.tc : Thread nD τ).loc main_arg1)) := by walk; exact W1_v3 m ρ c
theorem W9_v6 : W9 m ρ c (Proc.devRef .tc main_v6) = val_main_v6 (F := Ideal) (m ((c.tc : Thread nD τ).loc main_arg1)) := by walk; exact W1_v6 m ρ c
theorem W9_v26 : W9 m ρ c (Proc.devRef .tc main_v26) = val_main_v26 (F := Ideal) (m ((c.tc : Thread nD τ).loc main_arg1)) := by walk; exact W1_v26 m ρ c

theorem W11_v3 : W11 m ρ c (Proc.devRef .tc main_v3) = val_main_v3 (F := Ideal) (m ((c.tc : Thread nD τ).loc main_arg1)) := by walk; exact W1_v3 m ρ c
theorem W11_v6 : W11 m ρ c (Proc.devRef .tc main_v6) = val_main_v6 (F := Ideal) (m ((c.tc : Thread nD τ).loc main_arg1)) := by walk; exact W1_v6 m ρ c
theorem W11_v26 : W11 m ρ c (Proc.devRef .tc main_v26) = val_main_v26 (F := Ideal) (m ((c.tc : Thread nD τ).loc main_arg1)) := by walk; exact W1_v26 m ρ c

theorem W14_v3 : W14 m ρ c (Proc.devRef .tc main_v3) = val_main_v3 (F := Ideal) (m ((c.tc : Thread nD τ).loc main_arg1)) := by walk; exact W1_v3 m ρ c
theorem W14_v6 : W14 m ρ c (Proc.devRef .tc main_v6) = val_main_v6 (F := Ideal) (m ((c.tc : Thread nD τ).loc main_arg1)) := by walk; exact W1_v6 m ρ c
theorem W14_v26 : W14 m ρ c (Proc.devRef .tc main_v26) = val_main_v26 (F := Ideal) (m ((c.tc : Thread nD τ).loc main_arg1)) := by walk; exact W1_v26 m ρ c

theorem W17_v3 : W17 m ρ c (Proc.devRef .tc main_v3) = val_main_v3 (F := Ideal) (m ((c.tc : Thread nD τ).loc main_arg1)) := by walk; exact W1_v3 m ρ c
theorem W17_v6 : W17 m ρ c (Proc.devRef .tc main_v6) = val_main_v6 (F := Ideal) (m ((c.tc : Thread nD τ).loc main_arg1)) := by walk; exact W1_v6 m ρ c
theorem W17_v26 : W17 m ρ c (Proc.devRef .tc main_v26) = val_main_v26 (F := Ideal) (m ((c.tc : Thread nD τ).loc main_arg1)) := by walk; exact W1_v26 m ρ c

/-! ## Layer by layer -/

theorem W2_v27 : W2 m ρ c (Proc.devRef .tc main_v27) = val_main_v27 (F := Ideal) (m ((c.tc : Thread nD τ).loc main_arg0)) (m ((c.tc : Thread nD τ).loc main_arg3)) := by
  refine (W2_arr m ρ c 2).trans ((Region0.value (V1 m ρ) c).trans ((congrArg₂ Region0.prod (W1_arg0 m ρ c) (W1_arg3 m ρ c)).trans ?_))
  unfold Region0.prod val_main_v27
  rfl

theorem W4_v44 : W4 m ρ c (Proc.devRef .tc main_v44) = val_main_v44 (F := Ideal) (m ((c.tc : Thread nD τ).loc main_arg0)) (m ((c.tc : Thread nD τ).loc main_arg1)) (m ((c.tc : Thread nD τ).loc main_arg3)) (m ((c.tc : Thread nD τ).loc main_arg4)) :=
  Stage1.relu (W3 m ρ c) (m ((c.tc : Thread nD τ).loc main_arg0)) (m ((c.tc : Thread nD τ).loc main_arg1)) (m ((c.tc : Thread nD τ).loc main_arg3)) (m ((c.tc : Thread nD τ).loc main_arg4))
    (Stage1.agg (W2 m ρ c) (m ((c.tc : Thread nD τ).loc main_arg0)) (m ((c.tc : Thread nD τ).loc main_arg1)) (m ((c.tc : Thread nD τ).loc main_arg3)) (m ((c.tc : Thread nD τ).loc main_arg4)) (W2_v27 m ρ c) (W2_v3 m ρ c) (W2_v6 m ρ c) (W2_v26 m ρ c) (W2_arg4 m ρ c))

theorem W5_v45 : W5 m ρ c (Proc.devRef .tc main_v45) = val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W5_arr m ρ c 2).trans ((Region1.value (V4 m ρ) c).trans ((congrArg₂ Region1.prod (W4_v44 m ρ c) (W4_arg5 m ρ c)).trans ?_))
  unfold Region1.prod val_main_v45
  rfl

theorem W6_v61 : W6 m ρ c (Proc.devRef .tc main_v61) = val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  Stage2.agg (W5 m ρ c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (W5_v45 m ρ c) (W5_v3 m ρ c) (W5_v6 m ρ c) (W5_v26 m ρ c) (W5_arg6 m ρ c)

theorem W7_v62 : W7 m ρ c (Proc.devRef .tc main_v62) = val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W7_arr m ρ c 2).trans ((Region2.value (V6 m ρ) c).trans ((congrArg₂ Region2.prod (W6_v61 m ρ c) (W6_arg7 m ρ c)).trans ?_))
  unfold Region2.prod val_main_v62
  rfl

/-- The second layer's output is the third product's left operand, and the region leaves an operand array as it
    found it; the fourth product reads it again. -/
theorem W7_v61 : W7 m ρ c (Proc.devRef .tc main_v61) = val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  ((W7_arr m ρ c 0).trans (((dat2 (V6 m ρ) c).arrAt_in 0 rfl _).trans (A_eq2 (V6 m ρ) c 0))).trans (W6_v61 m ρ c)
theorem W8_v61 : W8 m ρ c (Proc.devRef .tc main_v61) = val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by walk; exact W7_v61 m ρ c

theorem W8_v78 : W8 m ρ c (Proc.devRef .tc main_v78) = val_main_v78 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  Stage3.agg (W7 m ρ c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (W7_v62 m ρ c) (W7_v3 m ρ c) (W7_v6 m ρ c) (W7_v26 m ρ c) (W7_arg8 m ρ c)

theorem W9_v79 : W9 m ρ c (Proc.devRef .tc main_v79) = val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) := by
  refine (W9_arr m ρ c 2).trans ((Region3.value (V8 m ρ) c).trans ((congrArg₂ Region3.prod (W8_v61 m ρ c) (W8_arg9 m ρ c)).trans ?_))
  unfold Region3.prod val_main_v79
  rfl

theorem W9_v78 : W9 m ρ c (Proc.devRef .tc main_v78) = val_main_v78 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by walk; exact W8_v78 m ρ c

theorem W10_v95 : W10 m ρ c (Proc.devRef .tc main_v95) = val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) :=
  Stage4.agg (W9 m ρ c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (W9_v79 m ρ c) (W9_v3 m ρ c) (W9_v6 m ρ c) (W9_v26 m ρ c) (W9_arg10 m ρ c)
theorem W10_v100 : W10 m ρ c (Proc.devRef .tc main_v100) = val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Stage4.sample (W9 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (W9_v79 m ρ c) (W9_v3 m ρ c) (W9_v6 m ρ c) (W9_v26 m ρ c) (W9_arg10 m ρ c) (W9_v78 m ρ c) (W9_arg2 m ρ c)

theorem W11_v101 : W11 m ρ c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W11_arr m ρ c 2).trans ((Region4.value (V10 m ρ) c).trans ((congrArg₂ Region4.prod (W10_v100 m ρ c) (W10_arg11 m ρ c)).trans ?_))
  unfold Region4.prod val_main_v101
  rfl

theorem W13_v118 : W13 m ρ c (Proc.devRef .tc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  Stage5.relu (W12 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    (Stage5.agg (W11 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (W11_v101 m ρ c) (W11_v3 m ρ c) (W11_v6 m ρ c) (W11_v26 m ρ c) (W11_arg12 m ρ c))

theorem W14_v119 : W14 m ρ c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W14_arr m ρ c 2).trans ((Region5.value (V13 m ρ) c).trans ((congrArg₂ Region5.prod (W13_v118 m ρ c) (W13_arg13 m ρ c)).trans ?_))
  unfold Region5.prod val_main_v119
  rfl

theorem W16_v136 : W16 m ρ c (Proc.devRef .tc main_v136) = val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  Stage6.relu (W15 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (Stage6.agg (W14 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (W14_v119 m ρ c) (W14_v3 m ρ c) (W14_v6 m ρ c) (W14_v26 m ρ c) (W14_arg14 m ρ c))

theorem W17_v137 : W17 m ρ c (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W17_arr m ρ c 2).trans ((Region6.value (V16 m ρ) c).trans ((congrArg₂ Region6.prod (W16_v136 m ρ c) (W16_arg15 m ρ c)).trans ?_))
  unfold Region6.prod val_main_v137
  rfl

/-! ## The three results at the end of the fold -/

theorem W18_v153 : W18 m ρ c (Proc.devRef .tc main_v153) = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  Stage7.agg (W17 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (W17_v137 m ρ c) (W17_v3 m ρ c) (W17_v6 m ρ c) (W17_v26 m ρ c) (W17_arg16 m ρ c)
theorem W18_v78 : W18 m ρ c (Proc.devRef .tc main_v78) = val_main_v78 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by walk; exact W8_v78 m ρ c
theorem W18_v95 : W18 m ρ c (Proc.devRef .tc main_v95) = val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by walk; exact W10_v95 m ρ c

end Cert.KernelIdeal.Fold
end
-- ==== Proof.lean ====
/-
  The certificate: a seven-layer graph autoencoder whose dense products run as tiled kernels, against the
  same network with the products on the host.

  Both programs compute, from node features, an edge list and seven weight matrices with biases, the
  symmetric-normalized aggregation  out = Σ_{edges into a node} norm(edge) · (h W)[source] + b  seven times,
  with rectifiers after three of the layers and the sample  mean + eps · exp(logvar / 2)  between encoder and
  decoder; they return the reconstruction, the mean and the log-variance. The only difference is where  h W  is
  formed: the kernel program multiplies in five row blocks of 10000 rows in a pipelined region, the reference in
  one host contraction. At the ideal values a product into a zero accumulator and the host's contraction are
  the same sum over the contraction positions, a row of the product depends on that row of the left operand
  only, and the five row blocks tile the result: so each region leaves the host contraction of its operand
  arrays (Region0 … Region6). Everything else is the same host operations applied to equal values
  (Stage0 … Stage7), so along the kernel program's segments the buffers hold the reference's values (Fold), and
  the run of the kernel program ends with every buffer at the end of that fold (KernelRun). No finiteness of the
  inputs is used: the two sums have the same terms in the same order.

  The frames of the two kernel programs are the generated frame certificates; the reference's frame is its
  generated run with the results dropped; the idealization rewrote nothing, so there is nothing to preserve.
-/
import proofs.«107225_j8890582302924_1_alg».proof.Defs
import proofs.«107225_j8890582302924_1_alg».proof.Proof.Gen.Kernel
import proofs.«107225_j8890582302924_1_alg».proof.Proof.Gen.Kernel.Frame
import proofs.«107225_j8890582302924_1_alg».proof.Proof.Gen.KernelIdeal
import proofs.«107225_j8890582302924_1_alg».proof.Proof.Gen.KernelIdeal.Frame
import proofs.«107225_j8890582302924_1_alg».proof.Proof.Gen.ReferenceIdeal
import proofs.«107225_j8890582302924_1_alg».proof.Proof.Gen.ReferenceIdeal.Run
import proofs.«107225_j8890582302924_1_alg».proof.Proof.Gen.ReferenceIdeal.Read
import proofs.«107225_j8890582302924_1_alg».proof.Proof.Gen.Pre_finite_inputs
import proofs.«107225_j8890582302924_1_alg».proof.Proof.KernelRun
import proofs.«107225_j8890582302924_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the arguments both idealized programs run, and end with the reconstruction, the
    mean and the log-variance at the same functions of the arguments: the reference's own values. The kernel
    program's run ends at the end of its fold through the segments, which is those values; the reference's run
    ends at its operations' composed terms, which are those values of ITS arguments, equal to the kernel's. -/
theorem algebraic : Cert.algebraic_KernelIdeal_ReferenceIdeal := by
  intro m ρ m' ρ' _ hagree
  refine ⟨fun c => Cert.ReferenceIdeal.Read.val_main_v153 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.RunValue.run_at (F := Ideal) m ρ)
    exact ⟨(h c Cert.KernelIdeal.main_v153 (by decide)).trans (Cert.KernelIdeal.Fold.W18_v153 m ρ c),
      (h c Cert.KernelIdeal.main_v78 (by decide)).trans (Cert.KernelIdeal.Fold.W18_v78 m ρ c),
      (h c Cert.KernelIdeal.main_v95 (by decide)).trans (Cert.KernelIdeal.Fold.W18_v95 m ρ c),
      (h c Cert.KernelIdeal.main_arg0 (by decide)).trans (Cert.KernelIdeal.Gen.W18_main_arg0 m ρ c),
      (h c Cert.KernelIdeal.main_arg1 (by decide)).trans (Cert.KernelIdeal.Gen.W18_main_arg1 m ρ c),
      (h c Cert.KernelIdeal.main_arg2 (by decide)).trans (Cert.KernelIdeal.Gen.W18_main_arg2 m ρ c),
      (h c Cert.KernelIdeal.main_arg3 (by decide)).trans (Cert.KernelIdeal.Gen.W18_main_arg3 m ρ c),
      (h c Cert.KernelIdeal.main_arg4 (by decide)).trans (Cert.KernelIdeal.Gen.W18_main_arg4 m ρ c),
      (h c Cert.KernelIdeal.main_arg5 (by decide)).trans (Cert.KernelIdeal.Gen.W18_main_arg5 m ρ c),
      (h c Cert.KernelIdeal.main_arg6 (by decide)).trans (Cert.KernelIdeal.Gen.W18_main_arg6 m ρ c),
      (h c Cert.KernelIdeal.main_arg7 (by decide)).trans (Cert.KernelIdeal.Gen.W18_main_arg7 m ρ c),
      (h c Cert.KernelIdeal.main_arg8 (by decide)).trans (Cert.KernelIdeal.Gen.W18_main_arg8 m ρ c),
      (h c Cert.KernelIdeal.main_arg9 (by decide)).trans (Cert.KernelIdeal.Gen.W18_main_arg9 m ρ c),
      (h c Cert.KernelIdeal.main_arg10 (by decide)).trans (Cert.KernelIdeal.Gen.W18_main_arg10 m ρ c),
      (h c Cert.KernelIdeal.main_arg11 (by decide)).trans (Cert.KernelIdeal.Gen.W18_main_arg11 m ρ c),
      (h c Cert.KernelIdeal.main_arg12 (by decide)).trans (Cert.KernelIdeal.Gen.W18_main_arg12 m ρ c),
      (h c Cert.KernelIdeal.main_arg13 (by decide)).trans (Cert.KernelIdeal.Gen.W18_main_arg13 m ρ c),
      (h c Cert.KernelIdeal.main_arg14 (by decide)).trans (Cert.KernelIdeal.Gen.W18_main_arg14 m ρ c),
      (h c Cert.KernelIdeal.main_arg15 (by decide)).trans (Cert.KernelIdeal.Gen.W18_main_arg15 m ρ c),
      (h c Cert.KernelIdeal.main_arg16 (by decide)).trans (Cert.KernelIdeal.Gen.W18_main_arg16 m ρ c)⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16⟩ := hagree c
    refine ⟨(h c).1.trans ((Cert.ReferenceIdeal.Read.val_main_v153_eq m' c).trans ?_),
      (h c).2.1.trans ((Cert.ReferenceIdeal.Read.val_main_v78_eq m' c).trans ?_),
      (h c).2.2.1.trans ((Cert.ReferenceIdeal.Read.val_main_v95_eq m' c).trans ?_), (h c).2.2.2⟩
    · rw [a0, a1, a2, a3, a4, a5, a6, a7, a8, a9, a10, a11, a12, a13, a14, a15, a16]
    · rw [a0, a1, a3, a4, a5, a6, a7, a8]
    · rw [a0, a1, a3, a4, a5, a6, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
